-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x5000 : Shape := ⟨2, ![10000, 5000]⟩
abbrev S_ : Shape := ⟨0, ![]⟩

class Facts : Prop where
  bcast_S_S10000x5000 : S_.BroadcastsInDim S10000x5000 (![] : Fin 0 → Fin S10000x5000.rank)
  reducesTo_S10000x5000_S_d0_1 : S10000x5000.ReducesTo [0, 1] S_
  h_S_ : 0 < S_.numel

variable [Facts]

def fn {F : FTy → Type} [FloatOps F] (main_arg0 : FVec F S10000x5000 .f32) (main_arg1 : FVec F S10000x5000 .f32) : IVec S_ 1 :=
  let main_v0 : FVec F S10000x5000 .f32 := Host.absf main_arg0
  let main_cst : FVec F S_ .f32 := constant S_ .f32 0x7F800000#32
  let main_v1 : FVec F S10000x5000 .f32 := broadcastInDim S10000x5000 ![] bcast_S_S10000x5000 main_cst
  let main_v2 : IVec S10000x5000 1 := cmpf .olt main_v0 main_v1
  let main_c : IVec S_ 1 := constantI S_ 1 1#1
  let main_v3 : IVec S_ 1 := (fun x v => Host.reduce IntOp.andi x v reducesTo_S10000x5000_S_d0_1 h_S_) main_v2 main_c
  let main_v4 : FVec F S10000x5000 .f32 := Host.absf main_arg1
  let main_cst_0 : FVec F S_ .f32 := constant S_ .f32 0x7F800000#32
  let main_v5 : FVec F S10000x5000 .f32 := broadcastInDim S10000x5000 ![] bcast_S_S10000x5000 main_cst_0
  let main_v6 : IVec S10000x5000 1 := cmpf .olt main_v4 main_v5
  let main_c_1 : IVec S_ 1 := constantI S_ 1 1#1
  let main_v7 : IVec S_ 1 := (fun x v => Host.reduce IntOp.andi x v reducesTo_S10000x5000_S_d0_1 h_S_) main_v6 main_c_1
  let main_v8 : IVec S_ 1 := andi main_v3 main_v7
  main_v8
-- ==== Kernel.lean ====
abbrev S10000x5000 : Shape := ⟨2, ![10000, 5000]⟩
abbrev S2x1x5000 : Shape := ⟨3, ![2, 1, 5000]⟩
abbrev S200x5000 : Shape := ⟨2, ![200, 5000]⟩
abbrev S1x1x5000 : Shape := ⟨3, ![1, 1, 5000]⟩
abbrev S5000 : Shape := ⟨1, ![5000]⟩
abbrev S1x5000 : Shape := ⟨2, ![1, 5000]⟩
abbrev S_ : Shape := ⟨0, ![]⟩

abbrev nBuf : Space → Nat
  | .hbm => 48
  | .vmem => 12
  | .smem => 0
  | _ => 0

abbrev bufTy : (tb : Table) → Fin (tcTables nBuf tb) → BufTy
  | .hbm, ⟨0, _⟩ => ⟨S10000x5000, .f32⟩
  | .hbm, ⟨1, _⟩ => ⟨S10000x5000, .f32⟩
  | .hbm, ⟨2, _⟩ => ⟨S2x1x5000, .f32⟩
  | .hbm, ⟨3, _⟩ => ⟨S2x1x5000, .f32⟩
  | .hbm, ⟨4, _⟩ => ⟨S2x1x5000, .f32⟩
  | .hbm, ⟨5, _⟩ => ⟨S2x1x5000, .f32⟩
  | .hbm, ⟨6, _⟩ => ⟨S_, .f32⟩
  | .hbm, ⟨7, _⟩ => ⟨S5000, .f32⟩
  | .hbm, ⟨8, _⟩ => ⟨S_, .f32⟩
  | .hbm, ⟨9, _⟩ => ⟨S5000, .f32⟩
  | .hbm, ⟨10, _⟩ => ⟨S_, .f32⟩
  | .hbm, ⟨11, _⟩ => ⟨S5000, .f32⟩
  | .hbm, ⟨12, _⟩ => ⟨S_, .f32⟩
  | .hbm, ⟨13, _⟩ => ⟨S5000, .f32⟩
  | .hbm, ⟨14, _⟩ => ⟨S_, .f32⟩
  | .hbm, ⟨15, _⟩ => ⟨S5000, .f32⟩
  | .hbm, ⟨16, _⟩ => ⟨S5000, .f32⟩
  | .hbm, ⟨17, _⟩ => ⟨S5000, .f32⟩
  | .hbm, ⟨18, _⟩ => ⟨S5000, .f32⟩
  | .hbm, ⟨19, _⟩ => ⟨S5000, .f32⟩
  | .hbm, ⟨20, _⟩ => ⟨S_, .f32⟩
  | .hbm, ⟨21, _⟩ => ⟨S5000, .f32⟩
  | .hbm, ⟨22, _⟩ => ⟨S5000, .i1⟩
  | .hbm, ⟨23, _⟩ => ⟨S_, .f32⟩
  | .hbm, ⟨24, _⟩ => ⟨S5000, .f32⟩
  | .hbm, ⟨25, _⟩ => ⟨S5000, .i1⟩
  | .hbm, ⟨26, _⟩ => ⟨S5000, .i1⟩
  | .hbm, ⟨27, _⟩ => ⟨S_, .f32⟩
  | .hbm, ⟨28, _⟩ => ⟨S_, .f32⟩
  | .hbm, ⟨29, _⟩ => ⟨S5000, .f32⟩
  | .hbm, ⟨30, _⟩ => ⟨S5000, .f32⟩
  | .hbm, ⟨31, _⟩ => ⟨S5000, .f32⟩
  | .hbm, ⟨32, _⟩ => ⟨S_, .f32⟩
  | .hbm, ⟨33, _⟩ => ⟨S5000, .f32⟩
  | .hbm, ⟨34, _⟩ => ⟨S5000, .f32⟩
  | .hbm, ⟨35, _⟩ => ⟨S5000, .f32⟩
  | .hbm, ⟨36, _⟩ => ⟨S5000, .f32⟩
  | .hbm, ⟨37, _⟩ => ⟨S_, .f32⟩
  | .hbm, ⟨38, _⟩ => ⟨S_, .f32⟩
  | .hbm, ⟨39, _⟩ => ⟨S5000, .f32⟩
  | .hbm, ⟨40, _⟩ => ⟨S5000, .f32⟩
  | .hbm, ⟨41, _⟩ => ⟨S5000, .i32⟩
  | .hbm, ⟨42, _⟩ => ⟨S_, .i32⟩
  | .hbm, ⟨43, _⟩ => ⟨S_, .i32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .local _ .vmem, ⟨0, _⟩ => ⟨S200x5000, .f32⟩
  | .local _ .vmem, ⟨1, _⟩ => ⟨S200x5000, .f32⟩
  | .local _ .vmem, ⟨2, _⟩ => ⟨S200x5000, .f32⟩
  | .local _ .vmem, ⟨3, _⟩ => ⟨S200x5000, .f32⟩
  | .local _ .vmem, ⟨4, _⟩ => ⟨S1x1x5000, .f32⟩
  | .local _ .vmem, ⟨5, _⟩ => ⟨S1x1x5000, .f32⟩
  | .local _ .vmem, ⟨6, _⟩ => ⟨S1x1x5000, .f32⟩
  | .local _ .vmem, ⟨7, _⟩ => ⟨S1x1x5000, .f32⟩
  | .local _ .vmem, ⟨8, _⟩ => ⟨S1x1x5000, .f32⟩
  | .local _ .vmem, ⟨9, _⟩ => ⟨S1x1x5000, .f32⟩
  | .local _ .vmem, ⟨10, _⟩ => ⟨S1x1x5000, .f32⟩
  | .local _ .vmem, ⟨11, _⟩ => ⟨S1x1x5000, .f32⟩
  | _, _ => ⟨S10000x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_cst_3 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_4 : Ref sig .tc := ⟨.hbm, 20, rfl⟩
abbrev main_v10 : Ref sig .tc := ⟨.hbm, 21, rfl⟩
abbrev main_v11 : Ref sig .tc := ⟨.hbm, 22, rfl⟩
abbrev main_cst_5 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_6 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_cst_9 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 25], ![false, false]⟩

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S200x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x5000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x5000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x5000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x5000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S200x5000_S200x5000_0_0 : ∀ a, (![0, 0] : Fin 2 → Nat) a + S200x5000.size a ≤ S200x5000.size a
  h_S200x5000 : 0 < S200x5000.numel
  natLt_1_32 : 1 < 32
  reduces_S200x5000_S5000 : S200x5000.Reduces [0] S5000
  shapeCasts_S5000_S1x5000 : S5000.ShapeCasts S1x5000
  shapeCasts_S1x5000_S1x1x5000 : S1x5000.ShapeCasts S1x1x5000
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x1x5000 : S1x1x5000.ShapeCasts S1x1x5000
  reducesTo_S2x1x5000_S5000_d0_1 : S2x1x5000.ReducesTo [0, 1] S5000
  h_S_ : 0 < S_.numel
  bcast_S_S5000 : S_.BroadcastsInDim S5000 (![] : Fin 0 → Fin S5000.rank)
  reducesTo_S5000_S_d0 : S5000.ReducesTo [0] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x5000.size a ≤ S10000x5000.size a
  hwx0_0 : ∀ i : grid0.Coords, EltTy.bits .f32 = 32 ∨ (Rect.block (s := S10000x5000) S200x5000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x5000.size a ≤ S10000x5000.size a
  hwx0_1 : ∀ i : grid0.Coords, EltTy.bits .f32 = 32 ∨ (Rect.block (s := S10000x5000) S200x5000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x5000.size a ≤ S2x1x5000.size a
  hwx0_2 : ∀ i : grid0.Coords, EltTy.bits .f32 = 32 ∨ (Rect.block (s := S2x1x5000) S1x1x5000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x5000.size a ≤ S2x1x5000.size a
  hwx0_3 : ∀ i : grid0.Coords, EltTy.bits .f32 = 32 ∨ (Rect.block (s := S2x1x5000) S1x1x5000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x5000.size a ≤ S2x1x5000.size a
  hwx0_4 : ∀ i : grid0.Coords, EltTy.bits .f32 = 32 ∨ (Rect.block (s := S2x1x5000) S1x1x5000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x5000.size a ≤ S2x1x5000.size a
  hwx0_5 : ∀ i : grid0.Coords, EltTy.bits .f32 = 32 ∨ (Rect.block (s := S2x1x5000) S1x1x5000.size (cc0_transform_5 i) (hinb0_5 i)).WholeWords (EltTy.packing .f32)

variable [Facts₀]

abbrev win0_0 : Pipeline.Window sig grid0 :=
  Pipeline.Window.ofSpec (Memref.whole main_arg0) S200x5000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x5000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x5000.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x1x5000.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1x5000.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x5000 : Shape := ⟨2, ![10000, 5000]⟩
abbrev S_ : Shape := ⟨0, ![]⟩
abbrev S5000 : Shape := ⟨1, ![5000]⟩
abbrev S1x5000 : Shape := ⟨2, ![1, 5000]⟩

abbrev nBuf : Space → Nat
  | .hbm => 64
  | .vmem => 0
  | .smem => 0
  | _ => 0

abbrev bufTy : (tb : Table) → Fin (tcTables nBuf tb) → BufTy
  | .hbm, ⟨0, _⟩ => ⟨S10000x5000, .f32⟩
  | .hbm, ⟨1, _⟩ => ⟨S10000x5000, .f32⟩
  | .hbm, ⟨2, _⟩ => ⟨S10000x5000, .i1⟩
  | .hbm, ⟨3, _⟩ => ⟨S10000x5000, .i1⟩
  | .hbm, ⟨4, _⟩ => ⟨S10000x5000, .i32⟩
  | .hbm, ⟨5, _⟩ => ⟨S_, .i32⟩
  | .hbm, ⟨6, _⟩ => ⟨S5000, .i32⟩
  | .hbm, ⟨7, _⟩ => ⟨S_, .f32⟩
  | .hbm, ⟨8, _⟩ => ⟨S_, .f32⟩
  | .hbm, ⟨9, _⟩ => ⟨S10000x5000, .f32⟩
  | .hbm, ⟨10, _⟩ => ⟨S10000x5000, .f32⟩
  | .hbm, ⟨11, _⟩ => ⟨S_, .f32⟩
  | .hbm, ⟨12, _⟩ => ⟨S_, .f32⟩
  | .hbm, ⟨13, _⟩ => ⟨S10000x5000, .f32⟩
  | .hbm, ⟨14, _⟩ => ⟨S10000x5000, .f32⟩
  | .hbm, ⟨15, _⟩ => ⟨S_, .i32⟩
  | .hbm, ⟨16, _⟩ => ⟨S5000, .i32⟩
  | .hbm, ⟨17, _⟩ => ⟨S5000, .i32⟩
  | .hbm, ⟨18, _⟩ => ⟨S5000, .f32⟩
  | .hbm, ⟨19, _⟩ => ⟨S_, .f32⟩
  | .hbm, ⟨20, _⟩ => ⟨S5000, .f32⟩
  | .hbm, ⟨21, _⟩ => ⟨S5000, .f32⟩
  | .hbm, ⟨22, _⟩ => ⟨S1x5000, .f32⟩
  | .hbm, ⟨23, _⟩ => ⟨S10000x5000, .f32⟩
  | .hbm, ⟨24, _⟩ => ⟨S10000x5000, .f32⟩
  | .hbm, ⟨25, _⟩ => ⟨S10000x5000, .f32⟩
  | .hbm, ⟨26, _⟩ => ⟨S_, .f32⟩
  | .hbm, ⟨27, _⟩ => ⟨S_, .f32⟩
  | .hbm, ⟨28, _⟩ => ⟨S10000x5000, .f32⟩
  | .hbm, ⟨29, _⟩ => ⟨S10000x5000, .f32⟩
  | .hbm, ⟨30, _⟩ => ⟨S_, .f32⟩
  | .hbm, ⟨31, _⟩ => ⟨S5000, .f32⟩
  | .hbm, ⟨32, _⟩ => ⟨S10000x5000, .f32⟩
  | .hbm, ⟨33, _⟩ => ⟨S10000x5000, .f32⟩
  | .hbm, ⟨34, _⟩ => ⟨S_, .f32⟩
  | .hbm, ⟨35, _⟩ => ⟨S5000, .f32⟩
  | .hbm, ⟨36, _⟩ => ⟨S_, .i32⟩
  | .hbm, ⟨37, _⟩ => ⟨S5000, .i32⟩
  | .hbm, ⟨38, _⟩ => ⟨S5000, .i1⟩
  | .hbm, ⟨39, _⟩ => ⟨S_, .f32⟩
  | .hbm, ⟨40, _⟩ => ⟨S5000, .f32⟩
  | .hbm, ⟨41, _⟩ => ⟨S5000, .i1⟩
  | .hbm, ⟨42, _⟩ => ⟨S5000, .i1⟩
  | .hbm, ⟨43, _⟩ => ⟨S_, .f32⟩
  | .hbm, ⟨44, _⟩ => ⟨S_, .f32⟩
  | .hbm, ⟨45, _⟩ => ⟨S5000, .f32⟩
  | .hbm, ⟨46, _⟩ => ⟨S5000, .f32⟩
  | .hbm, ⟨47, _⟩ => ⟨S5000, .f32⟩
  | .hbm, ⟨48, _⟩ => ⟨S_, .f32⟩
  | .hbm, ⟨49, _⟩ => ⟨S5000, .f32⟩
  | .hbm, ⟨50, _⟩ => ⟨S5000, .f32⟩
  | .hbm, ⟨51, _⟩ => ⟨S5000, .f32⟩
  | .hbm, ⟨52, _⟩ => ⟨S5000, .f32⟩
  | .hbm, ⟨53, _⟩ => ⟨S_, .f32⟩
  | .hbm, ⟨54, _⟩ => ⟨S_, .f32⟩
  | .hbm, ⟨55, _⟩ => ⟨S5000, .f32⟩
  | .hbm, ⟨56, _⟩ => ⟨S5000, .f32⟩
  | .hbm, ⟨57, _⟩ => ⟨S5000, .i32⟩
  | .hbm, ⟨58, _⟩ => ⟨S_, .i32⟩
  | .hbm, ⟨59, _⟩ => ⟨S_, .i32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S10000x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_cst : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_cst_0 : Ref sig .tc := ⟨.hbm, 11, rfl⟩
abbrev main_call1_v0 : Ref sig .tc := ⟨.hbm, 12, rfl⟩
abbrev main_call1_v1 : Ref sig .tc := ⟨.hbm, 13, rfl⟩
abbrev main_v5 : Ref sig .tc := ⟨.hbm, 14, rfl⟩
abbrev main_c_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_call2_v0 : Ref sig .tc := ⟨.hbm, 27, rfl⟩
abbrev main_call2_v1 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_8 : Ref sig .tc := ⟨.hbm, 43, rfl⟩
abbrev main_call3_v0 : Ref sig .tc := ⟨.hbm, 44, rfl⟩
abbrev main_call3_v1 : Ref sig .tc := ⟨.hbm, 45, rfl⟩
abbrev main_v25 : Ref sig .tc := ⟨.hbm, 46, rfl⟩
abbrev main_v26 : Ref sig .tc := ⟨.hbm, 47, rfl⟩
abbrev main_cst_9 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_10 : Ref sig .tc := ⟨.hbm, 53, rfl⟩
abbrev main_call4_v0 : Ref sig .tc := ⟨.hbm, 54, rfl⟩
abbrev main_call4_v1 : Ref sig .tc := ⟨.hbm, 55, rfl⟩
abbrev main_v31 : Ref sig .tc := ⟨.hbm, 56, rfl⟩
abbrev main_v32 : Ref sig .tc := ⟨.hbm, 57, rfl⟩
abbrev main_c_11 : Ref sig .tc := ⟨.hbm, 58, rfl⟩
abbrev main_v33 : Ref sig .tc := ⟨.hbm, 59, rfl⟩
abbrev main_v34 : Ref sig .tc := ⟨.hbm, 60, rfl⟩
abbrev main_cst_12 : Ref sig .tc := ⟨.hbm, 61, rfl⟩
abbrev main_v35 : Ref sig .tc := ⟨.hbm, 62, rfl⟩
abbrev main_v36 : Ref sig .tc := ⟨.hbm, 63, rfl⟩

abbrev nD : Nat := 1
abbrev τ : Topo := Topo.v7x

variable {F : FTy → Type} [FloatOps F]

class Facts₀ : Prop where
  natLt_1_32 : 1 < 32
  reducesTo_S10000x5000_S5000_d0 : S10000x5000.ReducesTo [0] S5000
  h_S_ : 0 < S_.numel
  bcast_S_S10000x5000 : S_.BroadcastsInDim S10000x5000 (![] : Fin 0 → Fin S10000x5000.rank)
  bcast_S_S5000 : S_.BroadcastsInDim S5000 (![] : Fin 0 → Fin S5000.rank)
  bcast_S5000_S1x5000_1 : S5000.BroadcastsInDim S1x5000 (![1] : Fin 1 → Fin S1x5000.rank)
  bcast_S1x5000_S10000x5000_0_1 : S1x5000.BroadcastsInDim S10000x5000 (![0, 1] : Fin 2 → Fin S10000x5000.rank)
  reducesTo_S5000_S_d0 : S5000.ReducesTo [0] S_

variable [Facts₀]

class Facts : Prop extends Facts₀ where

variable [Facts]
-- ==== Proof.KBody.lean ====
/-
  What one run of the kernel's body leaves in each of the four accumulators, for any float values.

  The body has two cases. At the first block of a half it stores zeros into the four accumulators and then adds the
  block's contribution to each; at every other block it adds the block's contribution to what the accumulator held.
  Each accumulator is written by one covering store per case (two in the first case, the zero store below it), so what
  it holds afterwards is that store's value: the block's contribution added to zero, or to the previous contents.
  The contributions are the body's own named values of the second input's block `x1` (and, for the residual, of the
  first input's block `x0`).
-/
import proofs.«171646_j7301444403971_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KBody
open Cert.KernelIdeal Cert.KernelIdeal.Gen
variable {F : FTy → Type} [FloatOps F]

/-- The accumulators' and the inputs' loads and stores start at the origin of their buffers. -/
theorem hz3 : (![0, 0, 0] : Fin 3 → Nat) = fun _ => 0 := funext fun a => by fin_cases a <;> rfl
theorem hz2 : (![0, 0] : Fin 2 → Nat) = fun _ => 0 := funext fun a => by fin_cases a <;> rfl

/-- A later block: the count's accumulator ends at its previous contents plus the block's contribution. -/
theorem out_B_2 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : ¬cond0_0 i) (x0 x1 : Vec F S200x5000 .f32) (xo2 xo3 xo4 xo5 : Vec F S1x1x5000 .f32) :
    out0_B_2 c i a2 h2 a3 h3 a4 h4 a5 h5 a6 h6 a7 h7 hc x0 x1 xo2 xo3 xo4 xo5 = k0_pay13 x1 xo2 := by
  unfold out0_B_2
  rw [View.read_writes_eq_canon _ _ _ (cover0_B_2 c i a2 h2 a3 h3 a4 h4 a5 h5 a6 h6 a7 h7 hc x0 x1 xo2 xo3 xo4 xo5)]
  unfold kernelRun0_B
  dsimp only
  (try sl_unfold_words)
  rw [View.canon_unit_zero hz3]
  simp only [View.readAt_eq_ld, h2.read_unread, h3.read_unread, h4.read_unread, h5.read_unread, h6.read_unread, h7.read_unread,
    View.ld_unit_zero (S := S200x5000) hz2, View.ld_unit_zero (S := S1x1x5000) hz3]

/-- The first block of a half: the count's accumulator ends at zero plus the block's contribution. -/
theorem out_A_2 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : cond0_0 i) (x0 x1 : Vec F S200x5000 .f32) :
    out0_A_2 c i a2 h2 a3 h3 a4 h4 a5 h5 a6 h6 a7 h7 hc x0 x1 = k0_pay13 x1 (k0_pay9 (F := F)) := by
  unfold out0_A_2
  rw [View.read_writes_eq_canon _ _ _ (cover0_A_2 c i a2 h2 a3 h3 a4 h4 a5 h5 a6 h6 a7 h7 hc x0 x1)]
  unfold kernelRun0_A
  dsimp only
  sl_unfold_words
  rw [View.canon_cons_unit_zero (S := S1x1x5000) hz3, View.readCov_unit_zero (S := S1x1x5000) _ hz3]
  simp only [View.readAt_eq_ld, h2.read_unread, h3.read_unread, View.ld_unit_zero (S := S200x5000) hz2, View.ld_unit_zero (S := S1x1x5000) hz3]

/-- A later block: the sum's accumulator ends at its previous contents plus the block's contribution. -/
theorem out_B_3 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : ¬cond0_0 i) (x0 x1 : Vec F S200x5000 .f32) (xo2 xo3 xo4 xo5 : Vec F S1x1x5000 .f32) :
    out0_B_3 c i a2 h2 a3 h3 a4 h4 a5 h5 a6 h6 a7 h7 hc x0 x1 xo2 xo3 xo4 xo5 = k0_pay1 (k0_pay6 x1) (k0_pay14 xo3) := by
  unfold out0_B_3
  rw [View.read_writes_eq_canon _ _ _ (cover0_B_3 c i a2 h2 a3 h3 a4 h4 a5 h5 a6 h6 a7 h7 hc x0 x1 xo2 xo3 xo4 xo5)]
  unfold kernelRun0_B
  dsimp only
  (try sl_unfold_words)
  rw [View.canon_unit_zero hz3]
  simp only [View.readAt_eq_ld, h2.read_unread, h3.read_unread, h4.read_unread, h5.read_unread, h6.read_unread, h7.read_unread,
    View.ld_unit_zero (S := S200x5000) hz2, View.ld_unit_zero (S := S1x1x5000) hz3]

/-- The first block of a half: the sum's accumulator ends at zero plus the block's contribution. -/
theorem out_A_3 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : cond0_0 i) (x0 x1 : Vec F S200x5000 .f32) :
    out0_A_3 c i a2 h2 a3 h3 a4 h4 a5 h5 a6 h6 a7 h7 hc x0 x1 = k0_pay1 (k0_pay6 x1) (k0_pay14 (k0_pay10 (F := F))) := by
  unfold out0_A_3
  rw [View.read_writes_eq_canon _ _ _ (cover0_A_3 c i a2 h2 a3 h3 a4 h4 a5 h5 a6 h6 a7 h7 hc x0 x1)]
  unfold kernelRun0_A
  dsimp only
  sl_unfold_words
  rw [View.canon_cons_unit_zero (S := S1x1x5000) hz3, View.readCov_unit_zero (S := S1x1x5000) _ hz3]
  simp only [View.readAt_eq_ld, h2.read_unread, h3.read_unread, View.ld_unit_zero (S := S200x5000) hz2, View.ld_unit_zero (S := S1x1x5000) hz3]

/-- A later block: the sum of squares's accumulator ends at its previous contents plus the block's contribution. -/
theorem out_B_4 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : ¬cond0_0 i) (x0 x1 : Vec F S200x5000 .f32) (xo2 xo3 xo4 xo5 : Vec F S1x1x5000 .f32) :
    out0_B_4 c i a2 h2 a3 h3 a4 h4 a5 h5 a6 h6 a7 h7 hc x0 x1 xo2 xo3 xo4 xo5 = k0_pay2 (k0_pay7 x1) xo4 := by
  unfold out0_B_4
  rw [View.read_writes_eq_canon _ _ _ (cover0_B_4 c i a2 h2 a3 h3 a4 h4 a5 h5 a6 h6 a7 h7 hc x0 x1 xo2 xo3 xo4 xo5)]
  unfold kernelRun0_B
  dsimp only
  (try sl_unfold_words)
  rw [View.canon_unit_zero hz3]
  simp only [View.readAt_eq_ld, h2.read_unread, h3.read_unread, h4.read_unread, h5.read_unread, h6.read_unread, h7.read_unread,
    View.ld_unit_zero (S := S200x5000) hz2, View.ld_unit_zero (S := S1x1x5000) hz3]

/-- The first block of a half: the sum of squares's accumulator ends at zero plus the block's contribution. -/
theorem out_A_4 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : cond0_0 i) (x0 x1 : Vec F S200x5000 .f32) :
    out0_A_4 c i a2 h2 a3 h3 a4 h4 a5 h5 a6 h6 a7 h7 hc x0 x1 = k0_pay2 (k0_pay7 x1) (k0_pay11 (F := F)) := by
  unfold out0_A_4
  rw [View.read_writes_eq_canon _ _ _ (cover0_A_4 c i a2 h2 a3 h3 a4 h4 a5 h5 a6 h6 a7 h7 hc x0 x1)]
  unfold kernelRun0_A
  dsimp only
  sl_unfold_words
  rw [View.canon_cons_unit_zero (S := S1x1x5000) hz3, View.readCov_unit_zero (S := S1x1x5000) _ hz3]
  simp only [View.readAt_eq_ld, h2.read_unread, h3.read_unread, View.ld_unit_zero (S := S200x5000) hz2, View.ld_unit_zero (S := S1x1x5000) hz3]

/-- A later block: the residual sum's accumulator ends at its previous contents plus the block's contribution. -/
theorem out_B_5 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : ¬cond0_0 i) (x0 x1 : Vec F S200x5000 .f32) (xo2 xo3 xo4 xo5 : Vec F S1x1x5000 .f32) :
    out0_B_5 c i a2 h2 a3 h3 a4 h4 a5 h5 a6 h6 a7 h7 hc x0 x1 xo2 xo3 xo4 xo5 = k0_pay3 (k0_pay8 x1 x0) xo5 := by
  unfold out0_B_5
  rw [View.read_writes_eq_canon _ _ _ (cover0_B_5 c i a2 h2 a3 h3 a4 h4 a5 h5 a6 h6 a7 h7 hc x0 x1 xo2 xo3 xo4 xo5)]
  unfold kernelRun0_B
  dsimp only
  (try sl_unfold_words)
  rw [View.canon_unit_zero hz3]
  simp only [View.readAt_eq_ld, h2.read_unread, h3.read_unread, h4.read_unread, h5.read_unread, h6.read_unread, h7.read_unread,
    View.ld_unit_zero (S := S200x5000) hz2, View.ld_unit_zero (S := S1x1x5000) hz3]

/-- The first block of a half: the residual sum's accumulator ends at zero plus the block's contribution. -/
theorem out_A_5 (c : Dev nD) (i : grid0.Coords) (a2 : Memref sig .tc .vmem S200x5000 .f32) (h2 : a2.IsWhole) (a3 : Memref sig .tc .vmem S200x5000 .f32) (h3 : a3.IsWhole)
    (a4 : Memref sig .tc .vmem S1x1x5000 .f32) (h4 : a4.IsWhole) (a5 : Memref sig .tc .vmem S1x1x5000 .f32) (h5 : a5.IsWhole)
    (a6 : Memref sig .tc .vmem S1x1x5000 .f32) (h6 : a6.IsWhole) (a7 : Memref sig .tc .vmem S1x1x5000 .f32) (h7 : a7.IsWhole)
    (hc : cond0_0 i) (x0 x1 : Vec F S200x5000 .f32) :
    out0_A_5 c i a2 h2 a3 h3 a4 h4 a5 h5 a6 h6 a7 h7 hc x0 x1 = k0_pay3 (k0_pay8 x1 x0) (k0_pay12 (F := F)) := by
  unfold out0_A_5
  rw [View.read_writes_eq_canon _ _ _ (cover0_A_5 c i a2 h2 a3 h3 a4 h4 a5 h5 a6 h6 a7 h7 hc x0 x1)]
  unfold kernelRun0_A
  dsimp only
  sl_unfold_words
  rw [View.canon_cons_unit_zero (S := S1x1x5000) hz3, View.readCov_unit_zero (S := S1x1x5000) _ hz3]
  simp only [View.readAt_eq_ld, h2.read_unread, h3.read_unread, View.ld_unit_zero (S := S200x5000) hz2, View.ld_unit_zero (S := S1x1x5000) hz3]

end Cert.KernelIdeal.KBody

end
-- ==== Proof.LibColSum.lean ====
/- A sum down the rows of a matrix, on the extended reals, for any extents: a `vector.multi_reduction <add>` along
   axis 0 of an [A, K] array from the neutral accumulator, read at column q, is the sum over the row coordinate k of
   the matrix at (k, q). The companion of the lane sum along axis 1. -/
import Idealize.ShloMosaic.PureOps.Ideal
import Idealize.ShloMosaic.PureOps.Ideal.Laws
import Idealize.ShloMosaic.Lib.ValueIdx

noncomputable section

open scoped BigOperators

open Idealize.ShloMosaic Idealize.ShloMosaic.ValueIdx

namespace Cert.Lib.ColSum

/-- A sum down the rows from the neutral accumulator, read at column q: the sum over the row coordinate of the matrix
    at (k, q). The hypotheses are typed as the library's reading of the reduction takes them; a printed body's proof
    arguments are accepted for them. -/
theorem colSum_apply {A K : ℕ} (src : FVec Ideal ⟨2, ![A, K]⟩ .f32) (acc : BitVec 32)
    (h : (⟨2, ![A, K]⟩ : Shape).Reduces [0] ⟨1, ![K]⟩) (hφ : FKind.Formats .f32) (hacc : acc = FKind.add.neutral .f32 hφ)
    (q : Fin K) :
    multiReduction .add [0] ⟨1, ![K]⟩ src acc h hφ hacc (ix1 q) = ∑ k : Fin A, src (ix2 k q) :=
  (Ideal.multiReduction_add_single src acc h hφ hacc (ix1 q)).trans
    (Finset.sum_congr rfl fun k _ => congrArg src (funext fun a => Fin.ext (by
      match a with
      | ⟨0, _⟩ => rfl
      | ⟨1, _⟩ => rfl)))

end Cert.Lib.ColSum

end
-- ==== Proof.KPay.lean ====
/-
  The kernel body's named values read at an index, on the extended reals.

  On the extended reals nothing is unordered, so the body's test `x ≠ x` fails everywhere and its negation, the mask
  of valid entries, is all ones: the two masked selections are the blocks themselves. A block's contribution to an
  accumulator is a sum down the block's 200 rows, re-laid as a [1, 1, 5000] block: at column `q` it is the sum over
  the rows `r` of the summand at `(r, q)` — the constant one for the count, the second input's entry for the sum, its
  square for the sum of squares, the squared difference of the two inputs' entries for the residual. Each store's
  value is the accumulator's previous value at that column plus that sum.
-/
import proofs.«171646_j7301444403971_1_alg».proof.Proof.Gen.KernelIdeal.Skeleton
import proofs.«171646_j7301444403971_1_alg».proof.Proof.LibColSum
import Idealize.ShloMosaic.Lib.Pipeline.Value
import Idealize.ShloMosaic.Lib.ValueLayout
import Idealize.ShloMosaic.Lib.ValueIdx
import Idealize.ShloMosaic.PureOps.Ideal.Laws

noncomputable section

open scoped BigOperators
open Idealize.ShloMosaic Idealize.ShloMosaic.ValueIdx

namespace Cert.KernelIdeal.KPay

open Cert.KernelIdeal Cert.KernelIdeal.Gen

/-- The mask of valid entries is all ones: no extended real differs from itself. -/
theorem mask_apply (x1 : Vec Ideal S200x5000 .f32) (i : S200x5000.Idx) : k0_pay4 (F := Ideal) x1 i = 1#1 := by
  unfold k0_pay4
  dsimp only [xori, cmpf, constantI]
  have h : Ideal.cmp .one (x1 i) (x1 i) = 0#1 := by simp [Ideal.cmp]
  show IntOp.xori (Ideal.cmp .one (x1 i) (x1 i)) 1#1 = 1#1
  rw [h]
  rfl

/-- So the masked second input is the second input. -/
theorem sel_apply (x1 : Vec Ideal S200x5000 .f32) (i : S200x5000.Idx) : k0_pay5 (F := Ideal) x1 i = x1 i := by
  unfold k0_pay5
  show Scalar.select (k0_pay4 (F := Ideal) x1 i) (x1 i) _ = _
  rw [mask_apply, select_one]

/-- The zero block the first case stores is zero. -/
theorem zero9_apply (i : S1x1x5000.Idx) : k0_pay9 (F := Ideal) i = 0 := Ideal.ofBits_zero_f32
theorem zero10_apply (i : S1x1x5000.Idx) : k0_pay10 (F := Ideal) i = 0 := Ideal.ofBits_zero_f32
theorem zero11_apply (i : S1x1x5000.Idx) : k0_pay11 (F := Ideal) i = 0 := Ideal.ofBits_zero_f32
theorem zero12_apply (i : S1x1x5000.Idx) : k0_pay12 (F := Ideal) i = 0 := Ideal.ofBits_zero_f32

/-- The block's column sums of the second input. -/
theorem pay6_apply (x1 : Vec Ideal S200x5000 .f32) (u v : Fin 1) (q : Fin 5000) :
    k0_pay6 (F := Ideal) x1 (ix3 u v q) = ∑ r : Fin 200, x1 (ix2 r q) := by
  unfold k0_pay6
  dsimp only
  rw [shapeCast_ab_1ab_apply, shapeCast_a_1a_apply]
  refine (Cert.Lib.ColSum.colSum_apply _ _ _ _ _ q).trans ?_
  simp only [sel_apply]

/-- The block's column sums of the second input's squares. -/
theorem pay7_apply (x1 : Vec Ideal S200x5000 .f32) (u v : Fin 1) (q : Fin 5000) :
    k0_pay7 (F := Ideal) x1 (ix3 u v q) = ∑ r : Fin 200, x1 (ix2 r q) * x1 (ix2 r q) := by
  unfold k0_pay7
  dsimp only
  rw [shapeCast_ab_1ab_apply, shapeCast_a_1a_apply]
  refine (Cert.Lib.ColSum.colSum_apply _ _ _ _ _ q).trans ?_
  simp only [mulf_apply, sel_apply]

/-- The block's column sums of the squared differences. -/
theorem pay8_apply (x1 x0 : Vec Ideal S200x5000 .f32) (u v : Fin 1) (q : Fin 5000) :
    k0_pay8 (F := Ideal) x1 x0 (ix3 u v q)
      = ∑ r : Fin 200, (x1 (ix2 r q) - x0 (ix2 r q)) * (x1 (ix2 r q) - x0 (ix2 r q)) := by
  unfold k0_pay8
  dsimp only
  rw [shapeCast_ab_1ab_apply, shapeCast_a_1a_apply]
  refine (Cert.Lib.ColSum.colSum_apply _ _ _ _ _ q).trans ?_
  simp only [mulf_apply, subf_apply, sel_apply, select_apply, mask_apply, select_one]

/-- The count's store: the previous count plus one per row of the block. -/
theorem pay13_apply (x1 : Vec Ideal S200x5000 .f32) (prev : Vec Ideal S1x1x5000 .f32) (u v : Fin 1) (q : Fin 5000) :
    k0_pay13 (F := Ideal) x1 prev (ix3 u v q) = prev (ix3 u v q) + ∑ _r : Fin 200, (1 : EReal) := by
  unfold k0_pay13
  dsimp only
  rw [addf_apply, shapeCast_self, shapeCast_ab_1ab_apply, shapeCast_a_1a_apply]
  refine congrArg (prev (ix3 u v q) + ·) ?_
  refine (Cert.Lib.ColSum.colSum_apply _ _ _ _ _ q).trans ?_
  refine Finset.sum_congr rfl fun r _ => ?_
  rw [sitofp_apply, extui_apply, mask_apply]
  show (((BitVec.setWidth 32 (1#1 : BitVec 1)).toInt : ℝ) : EReal) = 1
  norm_num

/-- The sum's store: the previous sum plus the block's column sum. -/
theorem pay1_apply (x1 : Vec Ideal S200x5000 .f32) (prev : Vec Ideal S1x1x5000 .f32) (u v : Fin 1) (q : Fin 5000) :
    k0_pay1 (F := Ideal) (k0_pay6 x1) (k0_pay14 prev) (ix3 u v q) = prev (ix3 u v q) + ∑ r : Fin 200, x1 (ix2 r q) := by
  unfold k0_pay1 k0_pay14
  dsimp only
  rw [addf_apply, shapeCast_self, pay6_apply]

/-- The sum of squares' store. -/
theorem pay2_apply (x1 : Vec Ideal S200x5000 .f32) (prev : Vec Ideal S1x1x5000 .f32) (u v : Fin 1) (q : Fin 5000) :
    k0_pay2 (F := Ideal) (k0_pay7 x1) prev (ix3 u v q) = prev (ix3 u v q) + ∑ r : Fin 200, x1 (ix2 r q) * x1 (ix2 r q) := by
  unfold k0_pay2
  rw [addf_apply, shapeCast_self, pay7_apply]

/-- The residual's store. -/
theorem pay3_apply (x1 x0 : Vec Ideal S200x5000 .f32) (prev : Vec Ideal S1x1x5000 .f32) (u v : Fin 1) (q : Fin 5000) :
    k0_pay3 (F := Ideal) (k0_pay8 x1 x0) prev (ix3 u v q)
      = prev (ix3 u v q) + ∑ r : Fin 200, (x1 (ix2 r q) - x0 (ix2 r q)) * (x1 (ix2 r q) - x0 (ix2 r q)) := by
  unfold k0_pay3
  rw [addf_apply, shapeCast_self, pay8_apply]

end Cert.KernelIdeal.KPay

end
-- ==== Proof.Spec.lean ====
/-
  The four column statistics the kernel accumulates, as functions of the two argument arrays over the extended reals.

  The 10000 rows are cut into two halves of 25 blocks of 200 rows: row `r` of block `j` of half `c` is row
  `200 * (25 * c + j) + r`. For a function `g` of one element of each array, `half g p t` is, at half `c` and column
  `q`, the sum over the half's 25 blocks of the sums over each block's 200 rows of `g` at that row and column.
  The four statistics are the count (`g = 1`), the sum of the second array, the sum of its squares, and the sum of
  the squared differences of the two arrays.
-/
import Idealize.ShloMosaic.PureOps.Ideal
import Idealize.ShloMosaic.Lib.ValueIdx

noncomputable section

open scoped BigOperators

namespace Cert.Spec

open Idealize.ShloMosaic Idealize.ShloMosaic.ValueIdx

/-- Row `r` of block `j` of half `c` is one of the 10000 rows. -/
theorem row_lt (c : Fin 2) (j : Fin 25) (r : Fin 200) : 200 * (25 * c.val + j.val) + r.val < 10000 := by omega

/-- Row `r` of block `j` of half `c`. -/
abbrev row (c : Fin 2) (j : Fin 25) (r : Fin 200) : Fin 10000 := ⟨200 * (25 * c.val + j.val) + r.val, row_lt c j r⟩

/-- The statistic of `g` over one half of the rows, per half and column. -/
def half (g : EReal → EReal → EReal) (p t : (⟨2, ![10000, 5000]⟩ : Shape).Idx → EReal) :
    (⟨3, ![2, 1, 5000]⟩ : Shape).Idx → EReal :=
  fun i => ∑ j : Fin 25, ∑ r : Fin 200, g (p (ix2 (row (i 0) j r) (i 2))) (t (ix2 (row (i 0) j r) (i 2)))

/-- Every row counts once. -/
def gCnt : EReal → EReal → EReal := fun _ _ => 1
/-- The second array's element. -/
def gSum : EReal → EReal → EReal := fun _ t => t
/-- The second array's element squared. -/
def gSq : EReal → EReal → EReal := fun _ t => t * t
/-- The squared difference of the two elements. -/
def gRes : EReal → EReal → EReal := fun p t => (t - p) * (t - p)

end Cert.Spec

end
-- ==== Proof.KAcc.lean ====
/-
  What the four accumulators hold after each point of the grid.

  The grid's 50 points run through the 50 blocks of 200 rows in order; point `n` belongs to half `n / 25` and is block
  `n % 25` of that half. At the first block of a half the accumulators restart from zero; at every other block they
  add to what the point before left. So after point `n` each accumulator holds, at column `q`, the sum over the
  blocks `25 * (n / 25) + j`, `j ≤ n % 25`, of the block's contribution — by induction on the point.
-/
import proofs.«171646_j7301444403971_1_alg».proof.Proof.KBody
import proofs.«171646_j7301444403971_1_alg».proof.Proof.KPay
import proofs.«171646_j7301444403971_1_alg».proof.Proof.Spec

noncomputable section

open scoped BigOperators
open Idealize.ShloMosaic Idealize.ShloMosaic.TcCoe Idealize.SL.Sem Idealize.ShloMosaic.ValueIdx

namespace Cert.KernelIdeal.KAcc

open Cert.KernelIdeal Cert.KernelIdeal.Gen Cert.KernelIdeal.KBody Cert.KernelIdeal.KPay Cert.Spec

section AnyValues

variable {F : FTy → Type} [FloatOps F]
variable (m : (ℓ : Loc nD τ sig) → Buf (Elt F) ℓ)

/-- At the first block of a half the accumulators hold zero plus the block's contributions. -/
theorem outs_first (c : Dev nD) (t : Fin cfg0.N) (h0 : t.val % 25 = 0) :
    outsAt0 m c t.val t.isLt =
      (k0_pay13 (iblk m c 1 t) (k0_pay9 (F := F)), k0_pay1 (k0_pay6 (iblk m c 1 t)) (k0_pay14 (k0_pay10 (F := F))),
        k0_pay2 (k0_pay7 (iblk m c 1 t)) (k0_pay11 (F := F)), k0_pay3 (k0_pay8 (iblk m c 1 t) (iblk m c 0 t)) (k0_pay12 (F := F))) := by
  rw [outsAt0_A m c t h0, out_A_2, out_A_3, out_A_4, out_A_5]

/-- At any other block they hold what the point before left plus the block's contributions. -/
theorem outs_next (c : Dev nD) (t : Fin cfg0.N) (h0 : ¬t.val % 25 = 0) :
    outsAt0 m c t.val t.isLt =
      (k0_pay13 (iblk m c 1 t) (outsAt0 m c (t.val - 1) (Nat.lt_of_le_of_lt (Nat.sub_le _ _) t.isLt)).1,
        k0_pay1 (k0_pay6 (iblk m c 1 t)) (k0_pay14 (outsAt0 m c (t.val - 1) (Nat.lt_of_le_of_lt (Nat.sub_le _ _) t.isLt)).2.1),
        k0_pay2 (k0_pay7 (iblk m c 1 t)) (outsAt0 m c (t.val - 1) (Nat.lt_of_le_of_lt (Nat.sub_le _ _) t.isLt)).2.2.1,
        k0_pay3 (k0_pay8 (iblk m c 1 t) (iblk m c 0 t)) (outsAt0 m c (t.val - 1) (Nat.lt_of_le_of_lt (Nat.sub_le _ _) t.isLt)).2.2.2) := by
  rw [outsAt0_B m c t h0, out_B_2, out_B_3, out_B_4, out_B_5]

end AnyValues

variable (m : (ℓ : Loc nD τ sig) → Buf (Elt Ideal) ℓ)

/-- Block `k`'s contribution to the statistic of `g` at column `q`: the sum of `g` down the block's 200 rows. -/
def blockSum (g : EReal → EReal → EReal) (c : Dev nD) (k : ℕ) (q : Fin 5000) : EReal :=
  if h : k < cfg0.N then
    ∑ r : Fin 200, g ((iblk m c 0 ⟨k, h⟩ : Vec Ideal S200x5000 .f32) (ix2 r q)) ((iblk m c 1 ⟨k, h⟩ : Vec Ideal S200x5000 .f32) (ix2 r q))
  else 0

theorem blockSum_of_lt (g : EReal → EReal → EReal) (c : Dev nD) (t : Fin cfg0.N) (q : Fin 5000) :
    blockSum m g c t.val q
      = ∑ r : Fin 200, g ((iblk m c 0 t : Vec Ideal S200x5000 .f32) (ix2 r q)) ((iblk m c 1 t : Vec Ideal S200x5000 .f32) (ix2 r q)) :=
  dif_pos t.isLt

/-- The statistic of `g` accumulated up to point `n`: over the blocks of `n`'s half up to `n`'s own. -/
def upTo (g : EReal → EReal → EReal) (c : Dev nD) (n : ℕ) (q : Fin 5000) : EReal :=
  ∑ j ∈ Finset.range (n % 25 + 1), blockSum m g c (25 * (n / 25) + j) q

theorem upTo_first (g : EReal → EReal → EReal) (c : Dev nD) (n : ℕ) (q : Fin 5000) (h0 : n % 25 = 0) :
    upTo m g c n q = blockSum m g c n q := by
  unfold upTo
  rw [h0, Finset.sum_range_one]
  congr 1
  omega

theorem upTo_next (g : EReal → EReal → EReal) (c : Dev nD) (n : ℕ) (q : Fin 5000) (h0 : ¬(n + 1) % 25 = 0) :
    upTo m g c (n + 1) q = upTo m g c n q + blockSum m g c (n + 1) q := by
  unfold upTo
  have e1 : (n + 1) % 25 = n % 25 + 1 := by omega
  have e2 : (n + 1) / 25 = n / 25 := by omega
  rw [e1, e2, Finset.sum_range_succ]
  congr 2
  omega

/-- The four accumulators after a point, read at a column, against the four statistics accumulated up to it. -/
def Holds (c : Dev nD) (n : ℕ) (h : n < cfg0.N) (q : Fin 5000) : Prop :=
  (outsAt0 m c n h).1 (ix3 0 0 q) = upTo m gCnt c n q ∧ (outsAt0 m c n h).2.1 (ix3 0 0 q) = upTo m gSum c n q
    ∧ (outsAt0 m c n h).2.2.1 (ix3 0 0 q) = upTo m gSq c n q ∧ (outsAt0 m c n h).2.2.2 (ix3 0 0 q) = upTo m gRes c n q

theorem holds_first (c : Dev nD) (t : Fin cfg0.N) (h0 : t.val % 25 = 0) (q : Fin 5000) : Holds m c t.val t.isLt q := by
  unfold Holds
  rw [outs_first m c t h0]
  dsimp only
  rw [pay13_apply, pay1_apply, pay2_apply, pay3_apply, zero9_apply, zero10_apply, zero11_apply, zero12_apply,
    upTo_first m _ c t.val q h0, upTo_first m _ c t.val q h0, upTo_first m _ c t.val q h0, upTo_first m _ c t.val q h0,
    blockSum_of_lt, blockSum_of_lt, blockSum_of_lt, blockSum_of_lt, zero_add, zero_add, zero_add, zero_add]
  exact ⟨rfl, rfl, rfl, rfl⟩

theorem holds_next (c : Dev nD) (n : ℕ) (h : n + 1 < cfg0.N) (h0 : ¬(n + 1) % 25 = 0) (q : Fin 5000)
    (ih : Holds m c n (Nat.lt_of_succ_lt h) q) : Holds m c (n + 1) h q := by
  obtain ⟨i2, i3, i4, i5⟩ := ih
  unfold Holds
  rw [show outsAt0 m c (n + 1) h = _ from outs_next m c ⟨n + 1, h⟩ h0]
  dsimp only
  rw [pay13_apply, pay1_apply, pay2_apply, pay3_apply,
    upTo_next m _ c n q h0, upTo_next m _ c n q h0, upTo_next m _ c n q h0, upTo_next m _ c n q h0,
    blockSum_of_lt m _ c ⟨n + 1, h⟩ q, blockSum_of_lt m _ c ⟨n + 1, h⟩ q, blockSum_of_lt m _ c ⟨n + 1, h⟩ q, blockSum_of_lt m _ c ⟨n + 1, h⟩ q]
  refine ⟨?_, ?_, ?_, ?_⟩
  · exact congrArg (· + _) i2
  · exact congrArg (· + _) i3
  · exact congrArg (· + _) i4
  · exact congrArg (· + _) i5

/-- After every point each accumulator holds its statistic accumulated up to that point. -/
theorem holds (c : Dev nD) (q : Fin 5000) : ∀ (n : ℕ) (h : n < cfg0.N), Holds m c n h q
  | 0, h => holds_first m c ⟨0, h⟩ rfl q
  | n + 1, h => by
    by_cases h0 : (n + 1) % 25 = 0
    · exact holds_first m c ⟨n + 1, h⟩ h0 q
    · exact holds_next m c n h h0 q (holds c q n (Nat.lt_of_succ_lt h))

end Cert.KernelIdeal.KAcc

end
-- ==== Proof.KArr.lean ====
/-
  The four arrays the launch leaves, as functions of the blocks' contributions.

  An accumulator is written back to its array at the last block of each half (the points 24 and 49): half `c` of the
  array then holds, at column `q`, the sum over the half's 25 blocks of the block's contribution. The two write-backs
  cover the [2, 1, 5000] array, so that is the whole array after the launch.
-/
import proofs.«171646_j7301444403971_1_alg».proof.Proof.KAcc

noncomputable section

open scoped BigOperators
open Idealize.ShloMosaic Idealize.ShloMosaic.TcCoe Idealize.SL.Sem Idealize.ShloMosaic.ValueIdx
open Idealize.ShloMosaic.Pipeline (Dat)

namespace Cert.KernelIdeal.KArr

open Cert.KernelIdeal Cert.KernelIdeal.Gen Cert.KernelIdeal.KAcc Cert.Spec

variable (m : (ℓ : Loc nD τ sig) → Buf (Elt Ideal) ℓ)

/-- The statistic of `g` over each half: at half `i 0` and column `i 2`, the sum of the half's 25 blocks' contributions. -/
def halves (g : EReal → EReal → EReal) (c : Dev nD) : S2x1x5000.Idx → EReal :=
  fun i => ∑ j ∈ Finset.range 25, blockSum m g c (25 * (i 0).val + j) (i 2)

/-- The output windows' block index at point `t` is its half, `t / 25`, on the first axis and zero on the others. -/
theorem out_idx : ∀ t : Fin cfg0.N,
    (win0_2.index t (0 : Fin 3) = t.val / 25 ∧ win0_2.index t (1 : Fin 3) = 0 ∧ win0_2.index t (2 : Fin 3) = 0)
    ∧ (win0_3.index t (0 : Fin 3) = t.val / 25 ∧ win0_3.index t (1 : Fin 3) = 0 ∧ win0_3.index t (2 : Fin 3) = 0)
    ∧ (win0_4.index t (0 : Fin 3) = t.val / 25 ∧ win0_4.index t (1 : Fin 3) = 0 ∧ win0_4.index t (2 : Fin 3) = 0)
    ∧ (win0_5.index t (0 : Fin 3) = t.val / 25 ∧ win0_5.index t (1 : Fin 3) = 0 ∧ win0_5.index t (2 : Fin 3) = 0) :=
  (by decide +kernel : ∀ t : Fin grid0.N, _)

/-- What the write-back of accumulator 2 at the end of a half writes: that half of the statistic. -/
theorem flushed2_eq (c : Dev nD) (t : Fin cfg0.N) (hf : (cfg0.win 2).flush t = true) :
    (dats m 0 c).flushed 2 t = ((cfg0.win 2).blk t).view.read (Elt Ideal) (halves m gCnt c) := by
  have ht : t.val % 25 = 24 := (flush0_2 t).mp hf
  obtain ⟨e0, e1, e2⟩ := (out_idx t).1
  show (cfg0.win 2).cut (grid0.coords t) ((dats m 0 c).after 2 t) = _
  rw [after0_2]
  funext y
  rw [View.read_apply]
  show (outsAt0 m c t.val t.isLt).1 y = halves m gCnt c (((cfg0.win 2).blk t).view.emb y)
  revert y
  show ∀ y : S1x1x5000.Idx, (outsAt0 m c t.val t.isLt).1 y = halves m gCnt c (((cfg0.win 2).blk t).view.emb y)
  intro y
  obtain ⟨u, v, q, rfl⟩ : ∃ (u v : Fin 1) (q : Fin 5000), y = ix3 u v q := ⟨y 0, y 1, y 2, eq_ix3 y⟩
  obtain rfl : u = 0 := Subsingleton.elim _ _
  obtain rfl : v = 0 := Subsingleton.elim _ _
  rw [(holds m c q t.val t.isLt).1]
  unfold halves upTo
  rw [ht]
  have h0 : ((((cfg0.win 2).blk t).view.emb (ix3 0 0 q)) 0).val = t.val / 25 := by
    show win0_2.index t (0 : Fin 3) * 1 + 1 * 0 = _
    omega
  have h2 : (((cfg0.win 2).blk t).view.emb (ix3 0 0 q)) 2 = q :=
    Fin.ext (by show win0_2.index t (2 : Fin 3) * 5000 + 1 * q.val = q.val; omega)
  rw [h0, h2]

/-- An index of array 2 is in point `t`'s block iff each coordinate is in the block's range on its axis. -/
theorem mem_blk2 (t : Fin cfg0.N) (i : S2x1x5000.Idx) :
    i ∈ ((cfg0.win 2).blk t).view.set ↔ ∀ a : Fin 3, win0_2.index t a * S1x1x5000.size a ≤ (i a).val ∧ (i a).val < win0_2.index t a * S1x1x5000.size a + S1x1x5000.size a := by
  show i ∈ ((View.whole main_v0_0).slice (win0_2.rect t)).set ↔ _
  rw [View.set_slice_whole, Rect.mem_set_unit]
  exact Iff.rfl

/-- Every index of array 2 is written back at the last point of its half. -/
theorem cover2 (i : S2x1x5000.Idx) : ∃ t : Fin cfg0.N, (cfg0.win 2).flush t = true ∧ i ∈ ((cfg0.win 2).blk t).view.set := by
  have h0 : (i 0).val < 2 := (i 0).isLt
  have h1 : (i 1).val < 1 := (i 1).isLt
  have h2 : (i 2).val < 5000 := (i 2).isLt
  have hlt : 25 * (i 0).val + 24 < cfg0.N := lt_of_lt_of_eq (by omega : 25 * (i 0).val + 24 < 50) (show cfg0.N = 50 from N_0).symm
  refine ⟨⟨25 * (i 0).val + 24, hlt⟩, (flush0_2 _).mpr (by show (25 * (i 0).val + 24) % 25 = 24; omega), ?_⟩
  obtain ⟨e0, e1, e2⟩ := (out_idx (⟨25 * (i 0).val + 24, hlt⟩ : Fin cfg0.N)).1
  have e0' : win0_2.index ⟨25 * (i 0).val + 24, hlt⟩ (0 : Fin 3) = (25 * (i 0).val + 24) / 25 := e0
  rw [mem_blk2]
  intro a
  match a with
  | ⟨0, _⟩ =>
    show win0_2.index ⟨25 * (i 0).val + 24, hlt⟩ (0 : Fin 3) * 1 ≤ (i 0).val ∧ (i 0).val < win0_2.index ⟨25 * (i 0).val + 24, hlt⟩ (0 : Fin 3) * 1 + 1
    omega
  | ⟨1, _⟩ =>
    show win0_2.index ⟨25 * (i 0).val + 24, hlt⟩ (1 : Fin 3) * 1 ≤ (i 1).val ∧ (i 1).val < win0_2.index ⟨25 * (i 0).val + 24, hlt⟩ (1 : Fin 3) * 1 + 1
    omega
  | ⟨2, _⟩ =>
    show win0_2.index ⟨25 * (i 0).val + 24, hlt⟩ (2 : Fin 3) * 5000 ≤ (i 2).val ∧ (i 2).val < win0_2.index ⟨25 * (i 0).val + 24, hlt⟩ (2 : Fin 3) * 5000 + 5000
    omega

/-- Array 2 after the launch: the statistic over each half. -/
theorem final2 (c : Dev nD) : (dats m 0 c).arrAt 2 cfg0.N = halves m gCnt c :=
  (dats m 0 c).arrAt_eq_of_cover 2 (halves m gCnt c) (flushed2_eq m c) cover2

/-- What the write-back of accumulator 3 at the end of a half writes: that half of the statistic. -/
theorem flushed3_eq (c : Dev nD) (t : Fin cfg0.N) (hf : (cfg0.win 3).flush t = true) :
    (dats m 0 c).flushed 3 t = ((cfg0.win 3).blk t).view.read (Elt Ideal) (halves m gSum c) := by
  have ht : t.val % 25 = 24 := (flush0_3 t).mp hf
  obtain ⟨e0, e1, e2⟩ := (out_idx t).2.1
  show (cfg0.win 3).cut (grid0.coords t) ((dats m 0 c).after 3 t) = _
  rw [after0_3]
  funext y
  rw [View.read_apply]
  show (outsAt0 m c t.val t.isLt).2.1 y = halves m gSum c (((cfg0.win 3).blk t).view.emb y)
  revert y
  show ∀ y : S1x1x5000.Idx, (outsAt0 m c t.val t.isLt).2.1 y = halves m gSum c (((cfg0.win 3).blk t).view.emb y)
  intro y
  obtain ⟨u, v, q, rfl⟩ : ∃ (u v : Fin 1) (q : Fin 5000), y = ix3 u v q := ⟨y 0, y 1, y 2, eq_ix3 y⟩
  obtain rfl : u = 0 := Subsingleton.elim _ _
  obtain rfl : v = 0 := Subsingleton.elim _ _
  rw [(holds m c q t.val t.isLt).2.1]
  unfold halves upTo
  rw [ht]
  have h0 : ((((cfg0.win 3).blk t).view.emb (ix3 0 0 q)) 0).val = t.val / 25 := by
    show win0_3.index t (0 : Fin 3) * 1 + 1 * 0 = _
    omega
  have h2 : (((cfg0.win 3).blk t).view.emb (ix3 0 0 q)) 2 = q :=
    Fin.ext (by show win0_3.index t (2 : Fin 3) * 5000 + 1 * q.val = q.val; omega)
  rw [h0, h2]

/-- An index of array 3 is in point `t`'s block iff each coordinate is in the block's range on its axis. -/
theorem mem_blk3 (t : Fin cfg0.N) (i : S2x1x5000.Idx) :
    i ∈ ((cfg0.win 3).blk t).view.set ↔ ∀ a : Fin 3, win0_3.index t a * S1x1x5000.size a ≤ (i a).val ∧ (i a).val < win0_3.index t a * S1x1x5000.size a + S1x1x5000.size a := by
  show i ∈ ((View.whole main_v0_1).slice (win0_3.rect t)).set ↔ _
  rw [View.set_slice_whole, Rect.mem_set_unit]
  exact Iff.rfl

/-- Every index of array 3 is written back at the last point of its half. -/
theorem cover3 (i : S2x1x5000.Idx) : ∃ t : Fin cfg0.N, (cfg0.win 3).flush t = true ∧ i ∈ ((cfg0.win 3).blk t).view.set := by
  have h0 : (i 0).val < 2 := (i 0).isLt
  have h1 : (i 1).val < 1 := (i 1).isLt
  have h2 : (i 2).val < 5000 := (i 2).isLt
  have hlt : 25 * (i 0).val + 24 < cfg0.N := lt_of_lt_of_eq (by omega : 25 * (i 0).val + 24 < 50) (show cfg0.N = 50 from N_0).symm
  refine ⟨⟨25 * (i 0).val + 24, hlt⟩, (flush0_3 _).mpr (by show (25 * (i 0).val + 24) % 25 = 24; omega), ?_⟩
  obtain ⟨e0, e1, e2⟩ := (out_idx (⟨25 * (i 0).val + 24, hlt⟩ : Fin cfg0.N)).2.1
  have e0' : win0_3.index ⟨25 * (i 0).val + 24, hlt⟩ (0 : Fin 3) = (25 * (i 0).val + 24) / 25 := e0
  rw [mem_blk3]
  intro a
  match a with
  | ⟨0, _⟩ =>
    show win0_3.index ⟨25 * (i 0).val + 24, hlt⟩ (0 : Fin 3) * 1 ≤ (i 0).val ∧ (i 0).val < win0_3.index ⟨25 * (i 0).val + 24, hlt⟩ (0 : Fin 3) * 1 + 1
    omega
  | ⟨1, _⟩ =>
    show win0_3.index ⟨25 * (i 0).val + 24, hlt⟩ (1 : Fin 3) * 1 ≤ (i 1).val ∧ (i 1).val < win0_3.index ⟨25 * (i 0).val + 24, hlt⟩ (1 : Fin 3) * 1 + 1
    omega
  | ⟨2, _⟩ =>
    show win0_3.index ⟨25 * (i 0).val + 24, hlt⟩ (2 : Fin 3) * 5000 ≤ (i 2).val ∧ (i 2).val < win0_3.index ⟨25 * (i 0).val + 24, hlt⟩ (2 : Fin 3) * 5000 + 5000
    omega

/-- Array 3 after the launch: the statistic over each half. -/
theorem final3 (c : Dev nD) : (dats m 0 c).arrAt 3 cfg0.N = halves m gSum c :=
  (dats m 0 c).arrAt_eq_of_cover 3 (halves m gSum c) (flushed3_eq m c) cover3

/-- What the write-back of accumulator 4 at the end of a half writes: that half of the statistic. -/
theorem flushed4_eq (c : Dev nD) (t : Fin cfg0.N) (hf : (cfg0.win 4).flush t = true) :
    (dats m 0 c).flushed 4 t = ((cfg0.win 4).blk t).view.read (Elt Ideal) (halves m gSq c) := by
  have ht : t.val % 25 = 24 := (flush0_4 t).mp hf
  obtain ⟨e0, e1, e2⟩ := (out_idx t).2.2.1
  show (cfg0.win 4).cut (grid0.coords t) ((dats m 0 c).after 4 t) = _
  rw [after0_4]
  funext y
  rw [View.read_apply]
  show (outsAt0 m c t.val t.isLt).2.2.1 y = halves m gSq c (((cfg0.win 4).blk t).view.emb y)
  revert y
  show ∀ y : S1x1x5000.Idx, (outsAt0 m c t.val t.isLt).2.2.1 y = halves m gSq c (((cfg0.win 4).blk t).view.emb y)
  intro y
  obtain ⟨u, v, q, rfl⟩ : ∃ (u v : Fin 1) (q : Fin 5000), y = ix3 u v q := ⟨y 0, y 1, y 2, eq_ix3 y⟩
  obtain rfl : u = 0 := Subsingleton.elim _ _
  obtain rfl : v = 0 := Subsingleton.elim _ _
  rw [(holds m c q t.val t.isLt).2.2.1]
  unfold halves upTo
  rw [ht]
  have h0 : ((((cfg0.win 4).blk t).view.emb (ix3 0 0 q)) 0).val = t.val / 25 := by
    show win0_4.index t (0 : Fin 3) * 1 + 1 * 0 = _
    omega
  have h2 : (((cfg0.win 4).blk t).view.emb (ix3 0 0 q)) 2 = q :=
    Fin.ext (by show win0_4.index t (2 : Fin 3) * 5000 + 1 * q.val = q.val; omega)
  rw [h0, h2]

/-- An index of array 4 is in point `t`'s block iff each coordinate is in the block's range on its axis. -/
theorem mem_blk4 (t : Fin cfg0.N) (i : S2x1x5000.Idx) :
    i ∈ ((cfg0.win 4).blk t).view.set ↔ ∀ a : Fin 3, win0_4.index t a * S1x1x5000.size a ≤ (i a).val ∧ (i a).val < win0_4.index t a * S1x1x5000.size a + S1x1x5000.size a := by
  show i ∈ ((View.whole main_v0_2).slice (win0_4.rect t)).set ↔ _
  rw [View.set_slice_whole, Rect.mem_set_unit]
  exact Iff.rfl

/-- Every index of array 4 is written back at the last point of its half. -/
theorem cover4 (i : S2x1x5000.Idx) : ∃ t : Fin cfg0.N, (cfg0.win 4).flush t = true ∧ i ∈ ((cfg0.win 4).blk t).view.set := by
  have h0 : (i 0).val < 2 := (i 0).isLt
  have h1 : (i 1).val < 1 := (i 1).isLt
  have h2 : (i 2).val < 5000 := (i 2).isLt
  have hlt : 25 * (i 0).val + 24 < cfg0.N := lt_of_lt_of_eq (by omega : 25 * (i 0).val + 24 < 50) (show cfg0.N = 50 from N_0).symm
  refine ⟨⟨25 * (i 0).val + 24, hlt⟩, (flush0_4 _).mpr (by show (25 * (i 0).val + 24) % 25 = 24; omega), ?_⟩
  obtain ⟨e0, e1, e2⟩ := (out_idx (⟨25 * (i 0).val + 24, hlt⟩ : Fin cfg0.N)).2.2.1
  have e0' : win0_4.index ⟨25 * (i 0).val + 24, hlt⟩ (0 : Fin 3) = (25 * (i 0).val + 24) / 25 := e0
  rw [mem_blk4]
  intro a
  match a with
  | ⟨0, _⟩ =>
    show win0_4.index ⟨25 * (i 0).val + 24, hlt⟩ (0 : Fin 3) * 1 ≤ (i 0).val ∧ (i 0).val < win0_4.index ⟨25 * (i 0).val + 24, hlt⟩ (0 : Fin 3) * 1 + 1
    omega
  | ⟨1, _⟩ =>
    show win0_4.index ⟨25 * (i 0).val + 24, hlt⟩ (1 : Fin 3) * 1 ≤ (i 1).val ∧ (i 1).val < win0_4.index ⟨25 * (i 0).val + 24, hlt⟩ (1 : Fin 3) * 1 + 1
    omega
  | ⟨2, _⟩ =>
    show win0_4.index ⟨25 * (i 0).val + 24, hlt⟩ (2 : Fin 3) * 5000 ≤ (i 2).val ∧ (i 2).val < win0_4.index ⟨25 * (i 0).val + 24, hlt⟩ (2 : Fin 3) * 5000 + 5000
    omega

/-- Array 4 after the launch: the statistic over each half. -/
theorem final4 (c : Dev nD) : (dats m 0 c).arrAt 4 cfg0.N = halves m gSq c :=
  (dats m 0 c).arrAt_eq_of_cover 4 (halves m gSq c) (flushed4_eq m c) cover4

/-- What the write-back of accumulator 5 at the end of a half writes: that half of the statistic. -/
theorem flushed5_eq (c : Dev nD) (t : Fin cfg0.N) (hf : (cfg0.win 5).flush t = true) :
    (dats m 0 c).flushed 5 t = ((cfg0.win 5).blk t).view.read (Elt Ideal) (halves m gRes c) := by
  have ht : t.val % 25 = 24 := (flush0_5 t).mp hf
  obtain ⟨e0, e1, e2⟩ := (out_idx t).2.2.2
  show (cfg0.win 5).cut (grid0.coords t) ((dats m 0 c).after 5 t) = _
  rw [after0_5]
  funext y
  rw [View.read_apply]
  show (outsAt0 m c t.val t.isLt).2.2.2 y = halves m gRes c (((cfg0.win 5).blk t).view.emb y)
  revert y
  show ∀ y : S1x1x5000.Idx, (outsAt0 m c t.val t.isLt).2.2.2 y = halves m gRes c (((cfg0.win 5).blk t).view.emb y)
  intro y
  obtain ⟨u, v, q, rfl⟩ : ∃ (u v : Fin 1) (q : Fin 5000), y = ix3 u v q := ⟨y 0, y 1, y 2, eq_ix3 y⟩
  obtain rfl : u = 0 := Subsingleton.elim _ _
  obtain rfl : v = 0 := Subsingleton.elim _ _
  rw [(holds m c q t.val t.isLt).2.2.2]
  unfold halves upTo
  rw [ht]
  have h0 : ((((cfg0.win 5).blk t).view.emb (ix3 0 0 q)) 0).val = t.val / 25 := by
    show win0_5.index t (0 : Fin 3) * 1 + 1 * 0 = _
    omega
  have h2 : (((cfg0.win 5).blk t).view.emb (ix3 0 0 q)) 2 = q :=
    Fin.ext (by show win0_5.index t (2 : Fin 3) * 5000 + 1 * q.val = q.val; omega)
  rw [h0, h2]

/-- An index of array 5 is in point `t`'s block iff each coordinate is in the block's range on its axis. -/
theorem mem_blk5 (t : Fin cfg0.N) (i : S2x1x5000.Idx) :
    i ∈ ((cfg0.win 5).blk t).view.set ↔ ∀ a : Fin 3, win0_5.index t a * S1x1x5000.size a ≤ (i a).val ∧ (i a).val < win0_5.index t a * S1x1x5000.size a + S1x1x5000.size a := by
  show i ∈ ((View.whole main_v0_3).slice (win0_5.rect t)).set ↔ _
  rw [View.set_slice_whole, Rect.mem_set_unit]
  exact Iff.rfl

/-- Every index of array 5 is written back at the last point of its half. -/
theorem cover5 (i : S2x1x5000.Idx) : ∃ t : Fin cfg0.N, (cfg0.win 5).flush t = true ∧ i ∈ ((cfg0.win 5).blk t).view.set := by
  have h0 : (i 0).val < 2 := (i 0).isLt
  have h1 : (i 1).val < 1 := (i 1).isLt
  have h2 : (i 2).val < 5000 := (i 2).isLt
  have hlt : 25 * (i 0).val + 24 < cfg0.N := lt_of_lt_of_eq (by omega : 25 * (i 0).val + 24 < 50) (show cfg0.N = 50 from N_0).symm
  refine ⟨⟨25 * (i 0).val + 24, hlt⟩, (flush0_5 _).mpr (by show (25 * (i 0).val + 24) % 25 = 24; omega), ?_⟩
  obtain ⟨e0, e1, e2⟩ := (out_idx (⟨25 * (i 0).val + 24, hlt⟩ : Fin cfg0.N)).2.2.2
  have e0' : win0_5.index ⟨25 * (i 0).val + 24, hlt⟩ (0 : Fin 3) = (25 * (i 0).val + 24) / 25 := e0
  rw [mem_blk5]
  intro a
  match a with
  | ⟨0, _⟩ =>
    show win0_5.index ⟨25 * (i 0).val + 24, hlt⟩ (0 : Fin 3) * 1 ≤ (i 0).val ∧ (i 0).val < win0_5.index ⟨25 * (i 0).val + 24, hlt⟩ (0 : Fin 3) * 1 + 1
    omega
  | ⟨1, _⟩ =>
    show win0_5.index ⟨25 * (i 0).val + 24, hlt⟩ (1 : Fin 3) * 1 ≤ (i 1).val ∧ (i 1).val < win0_5.index ⟨25 * (i 0).val + 24, hlt⟩ (1 : Fin 3) * 1 + 1
    omega
  | ⟨2, _⟩ =>
    show win0_5.index ⟨25 * (i 0).val + 24, hlt⟩ (2 : Fin 3) * 5000 ≤ (i 2).val ∧ (i 2).val < win0_5.index ⟨25 * (i 0).val + 24, hlt⟩ (2 : Fin 3) * 5000 + 5000
    omega

/-- Array 5 after the launch: the statistic over each half. -/
theorem final5 (c : Dev nD) : (dats m 0 c).arrAt 5 cfg0.N = halves m gRes c :=
  (dats m 0 c).arrAt_eq_of_cover 5 (halves m gRes c) (flushed5_eq m c) cover5

end Cert.KernelIdeal.KArr

end
-- ==== Proof.KVal.lean ====
/-
  The four arrays the launch leaves, as functions of the two argument arrays.

  Block `k` of an input is the 200 rows from row `200 * k` of its array, all 5000 columns; the launch finds the two
  arrays as the program was given them. So a block's contribution is the sum of `g` over those rows of the two
  arrays, and half `c` of each output array is the statistic of `g` over the rows of half `c`.
-/
import proofs.«171646_j7301444403971_1_alg».proof.Proof.KArr

noncomputable section

open scoped BigOperators
open Idealize.ShloMosaic Idealize.ShloMosaic.TcCoe Idealize.SL.Sem Idealize.ShloMosaic.ValueIdx
open Idealize.ShloMosaic.Pipeline (Dat)

namespace Cert.KernelIdeal.KVal

open Cert.KernelIdeal Cert.KernelIdeal.Gen Cert.KernelIdeal.KAcc Cert.KernelIdeal.KArr Cert.Spec

variable (m : (ℓ : Loc nD τ sig) → Buf (Elt Ideal) ℓ)

/-- The input windows' block index at point `t` is `t` on the rows and zero on the columns. -/
theorem in_idx : ∀ t : Fin cfg0.N,
    (win0_0.index t (0 : Fin 2) = t.val ∧ win0_0.index t (1 : Fin 2) = 0)
    ∧ (win0_1.index t (0 : Fin 2) = t.val ∧ win0_1.index t (1 : Fin 2) = 0) :=
  (by decide +kernel : ∀ t : Fin grid0.N, _)

theorem row_lt' (t : Fin cfg0.N) (r : Fin 200) : 200 * t.val + r.val < 10000 := by
  have hN : t.val < 50 := lt_of_lt_of_eq t.isLt (show cfg0.N = 50 from N_0)
  omega

/-- Block `t` of the first input, at row `r` and column `q`: the array at row `200 * t + r`. -/
theorem iblk0_apply (c : Dev nD) (t : Fin cfg0.N) (r : Fin 200) (q : Fin 5000) :
    (iblk m c 0 t : Vec Ideal S200x5000 .f32) (ix2 r q)
      = m ((c.tc : Thread nD τ).loc main_arg0) (ix2 ⟨200 * t.val + r.val, row_lt' t r⟩ q) := by
  obtain ⟨⟨e0, e1⟩, -⟩ := in_idx t
  unfold iblk
  rw [View.read_apply]
  show V m c main_arg0 (((cfg0.win 0).blk t).view.emb (ix2 r q)) = m ((c.tc : Thread nD τ).loc main_arg0) _
  rw [V_main_arg0]
  refine congrArg _ (funext fun a => Fin.ext ?_)
  match a with
  | ⟨0, _⟩ => show win0_0.index t (0 : Fin 2) * 200 + 1 * r.val = 200 * t.val + r.val; omega
  | ⟨1, _⟩ => show win0_0.index t (1 : Fin 2) * 5000 + 1 * q.val = q.val; omega

/-- Block `t` of the second input likewise. -/
theorem iblk1_apply (c : Dev nD) (t : Fin cfg0.N) (r : Fin 200) (q : Fin 5000) :
    (iblk m c 1 t : Vec Ideal S200x5000 .f32) (ix2 r q)
      = m ((c.tc : Thread nD τ).loc main_arg1) (ix2 ⟨200 * t.val + r.val, row_lt' t r⟩ q) := by
  obtain ⟨-, ⟨e0, e1⟩⟩ := in_idx t
  unfold iblk
  rw [View.read_apply]
  show V m c main_arg1 (((cfg0.win 1).blk t).view.emb (ix2 r q)) = m ((c.tc : Thread nD τ).loc main_arg1) _
  rw [V_main_arg1]
  refine congrArg _ (funext fun a => Fin.ext ?_)
  match a with
  | ⟨0, _⟩ => show win0_1.index t (0 : Fin 2) * 200 + 1 * r.val = 200 * t.val + r.val; omega
  | ⟨1, _⟩ => show win0_1.index t (1 : Fin 2) * 5000 + 1 * q.val = q.val; omega

/-- The statistic over each half, in terms of the argument arrays. -/
theorem halves_eq (g : EReal → EReal → EReal) (c : Dev nD) :
    halves m g c = half g (m ((c.tc : Thread nD τ).loc main_arg0)) (m ((c.tc : Thread nD τ).loc main_arg1)) := by
  funext i
  unfold halves half
  rw [Finset.sum_range]
  refine Finset.sum_congr rfl fun j _ => ?_
  have h0 : (i 0).val < 2 := (i 0).isLt
  have hlt : 25 * (i 0).val + j.val < cfg0.N := lt_of_lt_of_eq (by omega : 25 * (i 0).val + j.val < 50) (show cfg0.N = 50 from N_0).symm
  rw [blockSum_of_lt m g c ⟨25 * (i 0).val + j.val, hlt⟩ (i 2)]
  refine Finset.sum_congr rfl fun r _ => ?_
  exact congrArg₂ g (iblk0_apply m c ⟨25 * (i 0).val + j.val, hlt⟩ r (i 2)) (iblk1_apply m c ⟨25 * (i 0).val + j.val, hlt⟩ r (i 2))

end Cert.KernelIdeal.KVal

end
-- ==== Proof.KTail.lean ====
/-
  What the kernel's program computes, on the host, from the four arrays the launch leaves: each array's two halves are
  added; the sum of squares about the mean is taken as `sumsq - sumt * sumt / max cnt 1`; a column counts when its count
  exceeds ten and that sum is not zero; each counting column gives `res / (sqrt sst + 0.1)^2`; the result is the sum of
  those over the number of counting columns. The operations are the program's own, in its order.
-/
import proofs.«171646_j7301444403971_1_alg».proof.KernelIdeal

noncomputable section

namespace Cert.KTail

open Idealize.ShloMosaic Cert.KernelIdeal

variable {F : FTy → Type} [FloatOps F] [Cert.KernelIdeal.Facts]
open Cert.KernelIdeal.Facts₀ Cert.KernelIdeal.Facts

/-- From the validity mask, the sum of squares about the mean and the residual sum, per column: the mean over the
    counting columns of `res / (sqrt sst + 0.1)^2`. -/
def finish (v14 : IVec S5000 1) (v9 v4 : FVec F S5000 .f32) : FVec F S_ .f32 :=
  let v15 : FVec F S5000 .f32 := select v14 v9 (broadcastInDim S5000 ![] bcast_S_S5000 (id (constant (F := F) S_ .f32 0x3F800000#32)))
  let v16 : FVec F S5000 .f32 := Host.sqrt v15
  let v17 : FVec F S5000 .f32 := broadcastInDim S5000 ![] bcast_S_S5000 (constant (F := F) S_ .f32 0x3DCCCCCD#32)
  let v18 : FVec F S5000 .f32 := addf v16 v17
  let v19 : FVec F S5000 .f32 := mulf v18 v18
  let v20 : FVec F S5000 .f32 := Host.divf v4 v19
  let v21 : FVec F S5000 .f32 := select v14 v20 (broadcastInDim S5000 ![] bcast_S_S5000 (id (constant (F := F) S_ .f32 0x00000000#32)))
  let v22 : IVec S5000 32 := extui 32 v14 natLt_1_32
  let v23 : IVec S_ 32 := Host.reduce IntOp.addi v22 (constantI S_ 32 0#32) reducesTo_S5000_S_d0 h_S_
  let v24 : FVec F S_ .f32 := sitofp .f32 v23
  let v25 : FVec F S_ .f32 := Host.reduceAdd v21 (constant (F := F) S_ .f32 0x00000000#32) reducesTo_S5000_S_d0 h_S_
  Host.divf v25 v24

/-- The program's host operations after the launch, as one function of the four arrays it leaves. -/
def ktail (a2 a3 a4 a5 : FVec F S2x1x5000 .f32) : FVec F S_ .f32 :=
  let v1 : FVec F S5000 .f32 := Host.reduceAdd a2 (constant (F := F) S_ .f32 0x00000000#32) reducesTo_S2x1x5000_S5000_d0_1 h_S_
  let v2 : FVec F S5000 .f32 := Host.reduceAdd a3 (constant (F := F) S_ .f32 0x00000000#32) reducesTo_S2x1x5000_S5000_d0_1 h_S_
  let v3 : FVec F S5000 .f32 := Host.reduceAdd a4 (constant (F := F) S_ .f32 0x00000000#32) reducesTo_S2x1x5000_S5000_d0_1 h_S_
  let v4 : FVec F S5000 .f32 := Host.reduceAdd a5 (constant (F := F) S_ .f32 0x00000000#32) reducesTo_S2x1x5000_S5000_d0_1 h_S_
  let v5 : FVec F S5000 .f32 := broadcastInDim S5000 ![] bcast_S_S5000 (constant (F := F) S_ .f32 0x3F800000#32)
  let v6 : FVec F S5000 .f32 := maximumf v1 v5
  let v7 : FVec F S5000 .f32 := mulf v2 v2
  let v8 : FVec F S5000 .f32 := Host.divf v7 v6
  let v9 : FVec F S5000 .f32 := subf v3 v8
  let v10 : FVec F S5000 .f32 := broadcastInDim S5000 ![] bcast_S_S5000 (constant (F := F) S_ .f32 0x41200000#32)
  let v11 : IVec S5000 1 := cmpf .ogt v1 v10
  let v12 : FVec F S5000 .f32 := broadcastInDim S5000 ![] bcast_S_S5000 (constant (F := F) S_ .f32 0x00000000#32)
  let v13 : IVec S5000 1 := cmpf .une v9 v12
  let v14 : IVec S5000 1 := andi v11 v13
  finish v14 v9 v4

end Cert.KTail

end
-- ==== Proof.KRun.lean ====
/-
  The kernel's run, read: its result is the host's finishing computation of the four column statistics of the two
  argument arrays.

  The program's run leaves each of the four accumulated arrays at the statistic over each half of the rows, and the
  operations after the launch are applied to those arrays: the result buffer holds the finishing computation of them.
-/
import proofs.«171646_j7301444403971_1_alg».proof.Proof.KVal
import proofs.«171646_j7301444403971_1_alg».proof.Proof.KTail
import Idealize.ShloMosaic.Lib.StableHlo.Run

noncomputable section

open scoped BigOperators
open Idealize.ShloMosaic Idealize.ShloMosaic.TcCoe Idealize.SL.Sem Idealize.ShloMosaic.ValueIdx
open Idealize.ShloMosaic.Pipeline (Dat)
open Idealize.ShloMosaic.StableHlo

namespace Cert.KernelIdeal.KRun

open Cert.KernelIdeal Cert.KernelIdeal.Gen Cert.KernelIdeal.KArr Cert.KernelIdeal.KVal Cert.Spec

variable (m : (ℓ : Loc nD τ sig) → Buf (Elt Ideal) ℓ) (ρ : Dev nD → PrngReg)

set_option maxRecDepth 8192 in
set_option maxHeartbeats 8000000 in
/-- The result buffer after the operations that follow the launch: the finishing computation of the four arrays. -/
theorem tail_eq (c : Dev nD) :
    Pipeline.afterTail₀ cfgs (dats m) 0 (V0 m) [hostOps1, hostOps1_1, hostOps1_2, hostOps1_3, hostOps1_4] c main_v26
      = Cert.KTail.ktail (F := Ideal) ((dats m 0 c).arrAt 2 cfg0.N) ((dats m 0 c).arrAt 3 cfg0.N) ((dats m 0 c).arrAt 4 cfg0.N) ((dats m 0 c).arrAt 5 cfg0.N) := by
  have e2 : Pipeline.withArrays (cfgs 0).spec c (V0 m c) (fun w => (dats m 0 c).arrAt w (cfgs 0).N) (Proc.devRef .tc main_v0_0) = (dats m 0 c).arrAt 2 cfg0.N :=
    Pipeline.withArrays_arr spec0 launch0.win.arr_inj c (V0 m c) (fun w => (dats m 0 c).arrAt w (cfgs 0).N) 2
  have e3 : Pipeline.withArrays (cfgs 0).spec c (V0 m c) (fun w => (dats m 0 c).arrAt w (cfgs 0).N) (Proc.devRef .tc main_v0_1) = (dats m 0 c).arrAt 3 cfg0.N :=
    Pipeline.withArrays_arr spec0 launch0.win.arr_inj c (V0 m c) (fun w => (dats m 0 c).arrAt w (cfgs 0).N) 3
  have e4 : Pipeline.withArrays (cfgs 0).spec c (V0 m c) (fun w => (dats m 0 c).arrAt w (cfgs 0).N) (Proc.devRef .tc main_v0_2) = (dats m 0 c).arrAt 4 cfg0.N :=
    Pipeline.withArrays_arr spec0 launch0.win.arr_inj c (V0 m c) (fun w => (dats m 0 c).arrAt w (cfgs 0).N) 4
  have e5 : Pipeline.withArrays (cfgs 0).spec c (V0 m c) (fun w => (dats m 0 c).arrAt w (cfgs 0).N) (Proc.devRef .tc main_v0_3) = (dats m 0 c).arrAt 5 cfg0.N :=
    Pipeline.withArrays_arr spec0 launch0.win.arr_inj c (V0 m c) (fun w => (dats m 0 c).arrAt w (cfgs 0).N) 5
  unfold Pipeline.afterTail₀
  simp only [hostOps1, hostOps1_1, hostOps1_2, hostOps1_3, hostOps1_4, List.flatten_cons, List.flatten_nil, List.append_nil, List.cons_append, List.nil_append]
  after_results_simp
  rw [e2, e3, e4, e5]
  rfl

/-- The result buffer is neither scoped nor one of the launch's arrays. -/
theorem result_rest : main_v26 ∈ Pipeline.restRefs sig (cfgs 0).spec :=
  Pipeline.mem_restRefs_of main_v26 rfl (fun w => by fin_cases w <;> decide)

/-- Every weakly fair execution of the program ends with the result at the finishing computation of the four column
    statistics of the two argument arrays, and the arguments unchanged. -/
theorem run : θ_run defs (onTc (τ := τ) (main (F := Ideal))) ⟨m, fun _ => 0, ρ⟩ fun r => ∀ c : Dev nD,
      r.2.mem ((c.tc : Thread nD τ).loc main_v26)
        = Cert.KTail.ktail (F := Ideal)
            (half gCnt (m ((c.tc : Thread nD τ).loc main_arg0)) (m ((c.tc : Thread nD τ).loc main_arg1)))
            (half gSum (m ((c.tc : Thread nD τ).loc main_arg0)) (m ((c.tc : Thread nD τ).loc main_arg1)))
            (half gSq (m ((c.tc : Thread nD τ).loc main_arg0)) (m ((c.tc : Thread nD τ).loc main_arg1)))
            (half gRes (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v26 result_rest).trans ((tail_eq m c).trans (by
        rw [final2, final3, final4, final5, halves_eq, halves_eq, halves_eq, halves_eq])),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KRun

end
-- ==== Proof.LibBlockSum.lean ====
/-
  A sum over `a * b` consecutive indices, cut into `a` consecutive blocks of `b` indices each: the whole sum is the
  sum over the blocks of the sums inside each block. Only commutativity and associativity of `+` are used, so the
  law holds in every commutative additive monoid — in particular on the extended reals, where no finiteness is needed.
-/
import Mathlib.Algebra.BigOperators.Fin
import Mathlib.Logic.Equiv.Fin.Basic

namespace Cert.BlockSum

open Finset

/-- Position `j` of block `k` is an index below `a * b`. -/
theorem block_lt {a b : ℕ} (k : Fin a) (j : Fin b) : k.val * b + j.val < a * b :=
  Nat.lt_of_lt_of_le (Nat.add_lt_add_left j.isLt _) (by rw [← Nat.succ_mul]; exact Nat.mul_le_mul_right _ k.isLt)

/-- The sum of `g` over the `a * b` indices, read block by block: block `k` holds the indices `k * b + j`, `j < b`. -/
theorem sum_blocks {M : Type*} [AddCommMonoid M] (a b : ℕ) (g : Fin (a * b) → M) :
    ∑ i : Fin (a * b), g i = ∑ k : Fin a, ∑ j : Fin b, g ⟨k.val * b + j.val, block_lt k j⟩ := by
  rw [← finProdFinEquiv.sum_comp, Fintype.sum_prod_type]
  refine Finset.sum_congr rfl fun k _ => Finset.sum_congr rfl fun j _ => congrArg g (Fin.ext ?_)
  show j.val + b * k.val = k.val * b + j.val
  rw [Nat.mul_comm, Nat.add_comm]

/-- The same over `n` indices when `n` is the product `a * b`. -/
theorem sum_blocks_of_eq {M : Type*} [AddCommMonoid M] (a b n : ℕ) (hn : a * b = n) (g : Fin n → M) :
    ∑ i : Fin n, g i = ∑ k : Fin a, ∑ j : Fin b, g ⟨k.val * b + j.val, hn ▸ block_lt k j⟩ := by
  subst hn
  exact sum_blocks a b g

end Cert.BlockSum
-- ==== Proof.Regroup.lean ====
/-
  The 10000 rows, summed half by half, block by block, row by row, are the 10000 rows summed once: the rows
  `200 * (25 * c + j) + r` for `c < 2`, `j < 25`, `r < 200` are the numbers below 10000, each once. The 10000 indices are
  cut into 50 consecutive blocks of 200, and the 50 blocks into 2 consecutive runs of 25.
-/
import proofs.«171646_j7301444403971_1_alg».proof.Proof.Spec
import proofs.«171646_j7301444403971_1_alg».proof.Proof.LibBlockSum

open scoped BigOperators

namespace Cert.Regroup

open Cert.Spec

/-- A sum over the rows taken by half, block and row is the sum over all rows, in any commutative additive monoid. -/
theorem sum_rows {M : Type*} [AddCommMonoid M] (f : Fin 10000 → M) :
    ∑ c : Fin 2, ∑ j : Fin 25, ∑ r : Fin 200, f (row c j r) = ∑ k : Fin 10000, f k := by
  rw [Cert.BlockSum.sum_blocks_of_eq 50 200 10000 rfl f,
    Cert.BlockSum.sum_blocks_of_eq 2 25 50 rfl (fun b : Fin 50 => ∑ r : Fin 200, f ⟨b.val * 200 + r.val, _⟩)]
  refine Finset.sum_congr rfl fun c _ => Finset.sum_congr rfl fun j _ => Finset.sum_congr rfl fun r _ => ?_
  exact congrArg f (Fin.ext (by show 200 * (25 * c.val + j.val) + r.val = (c.val * 25 + j.val) * 200 + r.val; omega))

end Cert.Regroup
-- ==== Proof.KerCols.lean ====
/-
  The kernel's program adds, on the host, the two halves of each array its launch leaves: a sum from zero over the
  axes 0 and 1 of a [2, 1, 5000] array. The indices that reduce to column `q` are `(0, 0, q)` and `(1, 0, q)`, so
  the sum at `q` is the array at the one plus the array at the other. For a statistic taken half by half (Spec's
  `half g`) that is the statistic over all 10000 rows of the column.
-/
import proofs.«171646_j7301444403971_1_alg».proof.KernelIdeal
import proofs.«171646_j7301444403971_1_alg».proof.Proof.Spec
import proofs.«171646_j7301444403971_1_alg».proof.Proof.Regroup
import Idealize.ShloMosaic.PureOps.Ideal.Laws
import Idealize.ShloMosaic.Lib.ValueIdx

noncomputable section

open scoped BigOperators

namespace Cert.KerCols

open Idealize.ShloMosaic Idealize.ShloMosaic.ValueIdx Cert.KernelIdeal Cert.Spec

/-- Dropping the axes 0 and 1 of `(c, 0, q)` leaves `q`. -/
theorem drop_ix3 (h : S2x1x5000.ReducesTo [0, 1] S5000) (c : Fin 2) (q : Fin 5000) :
    h.drop (ix3 c 0 q) = ix1 q := by
  funext b
  match b with
  | ⟨0, _⟩ => exact Fin.ext rfl

/-- An index that drops to `j` is `(c, 0, j)` for its own first coordinate `c`. -/
theorem eq_ix3_of_drop (h : S2x1x5000.ReducesTo [0, 1] S5000) (i : S2x1x5000.Idx) (j : S5000.Idx)
    (e : h.drop i = j) : i = ix3 (i 0) 0 (j 0) := by
  subst e
  funext a
  match a with
  | ⟨0, _⟩ => rfl
  | ⟨1, _⟩ => exact Fin.ext (by have h1 : (i 1).val < 1 := (i 1).isLt; show (i 1).val = 0; omega)
  | ⟨2, _⟩ => exact Fin.ext rfl

/-- The two indices over column `q`. -/
def halfEmb (q : Fin 5000) : Fin 2 ↪ S2x1x5000.Idx :=
  ⟨fun c => ix3 c 0 q, fun c c' e => by have := congrFun e 0; exact this⟩

/-- The indices that reduce to `j` are those two. -/
theorem filter_drop (h : S2x1x5000.ReducesTo [0, 1] S5000) (j : S5000.Idx) :
    Finset.univ.filter (fun i : S2x1x5000.Idx => h.drop i = j) = Finset.univ.map (halfEmb (j 0)) := by
  ext i
  simp only [Finset.mem_filter, Finset.mem_univ, true_and, Finset.mem_map, halfEmb, Function.Embedding.coeFn_mk]
  exact ⟨fun e => ⟨i 0, (eq_ix3_of_drop h i j e).symm⟩,
    fun ⟨c, hc⟩ => hc ▸ (drop_ix3 h c (j 0)).trans (eq_ix1 j).symm⟩

/-- The host's sum of the two halves from zero, at a column. -/
theorem hostSum_apply (a : FVec Ideal S2x1x5000 .f32) (h : S2x1x5000.ReducesTo [0, 1] S5000) (hu : 0 < S_.numel)
    (j : S5000.Idx) :
    Host.reduceAdd a (constant (F := Ideal) S_ .f32 0x00000000#32) h hu j = ∑ c : Fin 2, a (ix3 c 0 (j 0)) := by
  show Ideal.hostReduceAdd h a (Ideal.ofBits .f32 0x00000000#32) j = _
  unfold Ideal.hostReduceAdd
  rw [filter_drop, Finset.sum_map, Ideal.ofBits_zero_f32, zero_add]
  rfl

/-- The host's sum of the two halves of a statistic is the statistic over all rows of the column. -/
theorem hostSum_half (g : EReal → EReal → EReal) (p t : (⟨2, ![10000, 5000]⟩ : Shape).Idx → EReal)
    (h : S2x1x5000.ReducesTo [0, 1] S5000) (hu : 0 < S_.numel) (j : S5000.Idx) :
    Host.reduceAdd (F := Ideal) (φ := .f32) (half g p t) (constant (F := Ideal) S_ .f32 0x00000000#32) h hu j
      = ∑ k : Fin 10000, g (p (ix2 k (j 0))) (t (ix2 k (j 0))) := by
  rw [hostSum_apply]
  exact Cert.Regroup.sum_rows (fun k => g (p (ix2 k (j 0))) (t (ix2 k (j 0))))

/-- The count of rows of a column. -/
theorem hostSum_cnt (p t : (⟨2, ![10000, 5000]⟩ : Shape).Idx → EReal)
    (h : S2x1x5000.ReducesTo [0, 1] S5000) (hu : 0 < S_.numel) (j : S5000.Idx) :
    Host.reduceAdd (F := Ideal) (φ := .f32) (half gCnt p t) (constant (F := Ideal) S_ .f32 0x00000000#32) h hu j
      = ((10000 : ℝ) : EReal) := by
  rw [hostSum_half]
  show ∑ _k : Fin 10000, (1 : EReal) = _
  rw [Finset.sum_const, Finset.card_univ, Fintype.card_fin, ← EReal.coe_one, ← EReal.coe_nsmul]
  norm_num

end Cert.KerCols

end
-- ==== Proof.LibCountOnes.lean ====
/-
  Counting by 32-bit words: adding the word 1 once for every element of a finite set, starting from a word `b`, ends at
  `b` plus the number of elements as a word. By induction on the set; nothing is evaluated.
-/
import Idealize.ShloMosaic.PureOps.Reduce

namespace Cert.Count

open Idealize.ShloMosaic

/-- The fold of the word addition over a set on which every word is 1. -/
theorem fold_addi_ones {ι : Type} [DecidableEq ι] (s : Finset ι) (f : ι → BitVec 32) (hf : ∀ k, f k = 1#32)
    (b : BitVec 32) : s.fold IntOp.addi b f = b + BitVec.ofNat 32 s.card := by
  induction s using Finset.induction_on with
  | empty => simp
  | insert a s ha ih =>
    rw [Finset.fold_insert ha, ih, hf a, Finset.card_insert_of_notMem ha, BitVec.ofNat_add]
    show 1#32 + (b + BitVec.ofNat 32 s.card) = b + (BitVec.ofNat 32 s.card + 1#32)
    rw [BitVec.add_comm, BitVec.add_assoc]

end Cert.Count
-- ==== Proof.RefCols.lean ====
/-
  The reference's column statistics over the extended reals, read at a column.

  The reference masks both arrays by "the second array's element is not a NaN", the negation of "the element differs
  from itself". An extended real never differs from itself, so the mask is 1 everywhere and every masked select keeps
  its first branch. Its count is then the word 1 added once per row: the word 10000, which exceeds 10, and whose
  maximum with 1, read as a real, is 10000. So at column `q`, with `x k` the second array's element at row `k`: the
  sum is `∑ x k`, the mean that sum over 10000, the sum of squares about the mean `∑ (x k - mean)^2`, and the
  residual `∑ (x k - y k)^2` with `y` the first array.
-/
import proofs.«171646_j7301444403971_1_alg».proof.Proof.Gen.ReferenceIdeal.Read
import proofs.«171646_j7301444403971_1_alg».proof.Proof.LibCountOnes
import Idealize.ShloMosaic.Lib.ValueIdx

noncomputable section

open scoped BigOperators

namespace Cert.RefCols

open Idealize.ShloMosaic Idealize.ShloMosaic.ValueIdx Cert.ReferenceIdeal Cert.ReferenceIdeal.Gen
  Cert.ReferenceIdeal.Read

variable (p t : S10000x5000.Idx → EReal)

/-- The mask is 1 at every element: an extended real does not differ from itself. -/
theorem mask_one (i : S10000x5000.Idx) : val_main_v1 (F := Ideal) t i = 1#1 := by
  rw [val_main_v1_apply, val_main_v0_apply]
  show ~~~(Ideal.cmp .une (t i) (t i)) = 1#1
  simp [Ideal.cmp]

/-- The masked second array is the second array. -/
theorem v4_apply (i : S10000x5000.Idx) : val_main_v4 (F := Ideal) t i = t i := by
  rw [val_main_v4_apply, mask_one, select_one]

/-- The masked first array is the first array. -/
theorem v5_apply (i : S10000x5000.Idx) : val_main_v5 (F := Ideal) p t i = p i := by
  rw [val_main_v5_apply, mask_one, select_one]

/-- The mask as a 32-bit word is the word 1. -/
theorem v2_apply (i : S10000x5000.Idx) : val_main_v2 (F := Ideal) t i = 1#32 := by
  rw [val_main_v2_apply, mask_one]
  rfl

/-- Row `k` of column `i`, as each of the three column sums indexes it. -/
theorem idx_col9 (i : S5000.Idx) (k : Fin 10000) : idx_main_v9 i k = ix2 k (i 0) := by
  funext a; match a with | ⟨0, _⟩ => rfl | ⟨1, _⟩ => rfl
theorem idx_col16 (i : S5000.Idx) (k : Fin 10000) : idx_main_v16 i k = ix2 k (i 0) := by
  funext a; match a with | ⟨0, _⟩ => rfl | ⟨1, _⟩ => rfl
theorem idx_col19 (i : S5000.Idx) (k : Fin 10000) : idx_main_v19 i k = ix2 k (i 0) := by
  funext a; match a with | ⟨0, _⟩ => rfl | ⟨1, _⟩ => rfl

/-- The mean, broadcast to a row and then down the rows, is read at row `k` of column `i` at `i`. -/
theorem idx_mean (i : S5000.Idx) (k : Fin 10000) : idx_main_v11 (idx_main_v12 (idx_main_v16 i k)) = i := by
  funext a; match a with | ⟨0, _⟩ => rfl

/-- The count of a column is the word 10000. -/
theorem v3_apply (i : S5000.Idx) : val_main_v3 (F := Ideal) t i = 10000#32 := by
  unfold val_main_v3
  rw [Host.reduce_eq_fold_single IntOp.addi _ _ reducesTo_S10000x5000_S5000_d0 (by decide) h_S_ i]
  refine (Cert.Count.fold_addi_ones _ _ (fun k => v2_apply t _) _).trans ?_
  rw [Finset.card_univ, Fintype.card_fin]
  rfl

/-- The count exceeds ten. -/
theorem v21_apply (i : S5000.Idx) : val_main_v21 (F := Ideal) t i = 1#1 := by
  rw [val_main_v21_apply, v3_apply, val_main_v20_apply, val_main_c_6_apply]
  decide

/-- The count, at least 1, as a real: 10000. -/
theorem v8_apply (i : S5000.Idx) : val_main_v8 (F := Ideal) t i = ((10000 : ℝ) : EReal) := by
  rw [val_main_v8_apply, val_main_v7_apply, v3_apply, val_main_v6_apply, val_main_c_1_apply]
  show (((IntOp.maxsi 10000#32 1#32).toInt : ℝ) : EReal) = _
  have h : (IntOp.maxsi 10000#32 1#32).toInt = 10000 := by decide
  rw [h]
  norm_num

/-- The column's sum. -/
theorem v9_apply (i : S5000.Idx) : val_main_v9 (F := Ideal) t i = ∑ k : Fin 10000, t (ix2 k (i 0)) := by
  rw [val_main_v9_apply, val_main_cst_2_apply]
  show Ideal.ofBits .f32 0x00000000#32 + _ = _
  rw [Ideal.ofBits_zero_f32, zero_add]
  exact Finset.sum_congr rfl fun k _ => by rw [v4_apply, idx_col9]; rfl

/-- The column's mean. -/
theorem v10_apply (i : S5000.Idx) :
    val_main_v10 (F := Ideal) t i = Ideal.div (∑ k : Fin 10000, t (ix2 k (i 0))) ((10000 : ℝ) : EReal) := by
  rw [val_main_v10_apply, v9_apply, v8_apply]
  rfl

/-- The column's sum of squares about its mean. -/
theorem v16_apply (i : S5000.Idx) :
    val_main_v16 (F := Ideal) t i
      = ∑ k : Fin 10000, (t (ix2 k (i 0)) - val_main_v10 (F := Ideal) t i) * (t (ix2 k (i 0)) - val_main_v10 (F := Ideal) t i) := by
  rw [val_main_v16_apply, val_main_cst_4_apply]
  show Ideal.ofBits .f32 0x00000000#32 + _ = _
  rw [Ideal.ofBits_zero_f32, zero_add]
  refine Finset.sum_congr rfl fun k _ => ?_
  rw [val_main_v15_apply, mask_one, select_one, val_main_v14_apply, val_main_v13_apply, v4_apply, val_main_v12_apply,
    val_main_v11_apply, idx_mean, idx_col16]
  rfl

/-- The column's residual sum of squares. -/
theorem v19_apply (i : S5000.Idx) :
    val_main_v19 (F := Ideal) p t i
      = ∑ k : Fin 10000, (t (ix2 k (i 0)) - p (ix2 k (i 0))) * (t (ix2 k (i 0)) - p (ix2 k (i 0))) := by
  rw [val_main_v19_apply, val_main_cst_5_apply]
  show Ideal.ofBits .f32 0x00000000#32 + _ = _
  rw [Ideal.ofBits_zero_f32, zero_add]
  refine Finset.sum_congr rfl fun k _ => ?_
  rw [val_main_v18_apply, val_main_v17_apply, v4_apply, v5_apply, idx_col19]
  rfl

end Cert.RefCols

end
-- ==== Proof.LibVariance.lean ====
/-
  The sum of squares about the mean, written two ways. For real numbers `x k` indexed by a finite type with `N`
  elements, `N ≠ 0`, and `S = ∑ x k`:

      ∑ (x k)^2 - S * S / N  =  ∑ (x k - S / N)^2 .

  Expanding the square on the right gives `∑ (x k)^2 - 2 (S / N) S + N (S / N)^2`, and the last two terms are
  `- S^2 / N`. The law is stated on the extended reals for entries that are real numbers, with the extended reals'
  own quotient: a sum of reals is a real, a quotient by a nonzero real is a product with its reciprocal, so both
  sides are the coercions of the two sides of the law over the reals.
-/
import Idealize.ShloMosaic.PureOps.Ideal

noncomputable section

open scoped BigOperators

namespace Cert.Variance

open Idealize.ShloMosaic

variable {ι : Type}

/-- A finite sum of real numbers, read in the extended reals, is the sum of the numbers read there. -/
theorem coe_sum (s : Finset ι) (x : ι → ℝ) : ((∑ k ∈ s, x k : ℝ) : EReal) = ∑ k ∈ s, (x k : EReal) := by
  classical
  induction s using Finset.induction_on with
  | empty => simp
  | insert a s ha ih => rw [Finset.sum_insert ha, Finset.sum_insert ha, EReal.coe_add, ih]

/-- The law over the reals. -/
theorem real_law [Fintype ι] (x : ι → ℝ) (N : ℝ) (hN : N ≠ 0) (hc : (Fintype.card ι : ℝ) = N) :
    (∑ k, x k * x k) - (∑ k, x k) * (∑ k, x k) * (1 / N)
      = ∑ k, (x k - (∑ k, x k) * (1 / N)) * (x k - (∑ k, x k) * (1 / N)) := by
  generalize hS : (∑ k, x k) = S
  have hsq : ∀ k, (x k - S * (1 / N)) * (x k - S * (1 / N))
      = x k * x k - 2 * (S * (1 / N)) * x k + (S * (1 / N)) * (S * (1 / N)) := fun k => by ring
  simp only [hsq, Finset.sum_add_distrib, Finset.sum_sub_distrib, ← Finset.mul_sum, Finset.sum_const,
    Finset.card_univ, nsmul_eq_mul, hc, hS]
  field_simp
  ring

/-- The law on the extended reals, for real entries. -/
theorem sumsq_sub_eq [Fintype ι] (x : ι → ℝ) (N : ℝ) (hN : N ≠ 0) (hc : (Fintype.card ι : ℝ) = N) :
    (∑ k, (x k : EReal) * (x k : EReal))
        - Ideal.div ((∑ k, (x k : EReal)) * (∑ k, (x k : EReal))) (N : EReal)
      = ∑ k, ((x k : EReal) - Ideal.div (∑ k, (x k : EReal)) (N : EReal))
          * ((x k : EReal) - Ideal.div (∑ k, (x k : EReal)) (N : EReal)) := by
  rw [← coe_sum, Ideal.div_coe hN, Ideal.div_coe hN]
  simp only [← EReal.coe_mul, ← EReal.coe_sub, ← coe_sum]
  exact congrArg _ (real_law x N hN hc)

end Cert.Variance

end
-- ==== Proof.Bridge.lean ====
/-
  The kernel's host operations on the four statistics, and the reference, are one function of the two arrays when
  every element is a real number.

  From the validity mask on, the two programs' endings are the same operations (`finish`), so it is enough that the
  three arrays entering it agree, column by column. The residual: both are `∑ (x k - y k)^2` over the column's 10000
  rows. The count: the kernel's is the real 10000, whose maximum with 1 is 10000 and which exceeds 10; the
  reference's is the word 10000, which exceeds the word 10. The sum of squares about the mean: the kernel's
  `∑ (x k)^2 - (∑ x k)^2 / 10000` is the reference's `∑ (x k - (∑ x k) / 10000)^2` by the law of Variance, the
  entries being real.
-/
import proofs.«171646_j7301444403971_1_alg».proof.Proof.KTail
import proofs.«171646_j7301444403971_1_alg».proof.Proof.Gen.KernelIdeal
import proofs.«171646_j7301444403971_1_alg».proof.Proof.KerCols
import proofs.«171646_j7301444403971_1_alg».proof.Proof.RefCols
import proofs.«171646_j7301444403971_1_alg».proof.Proof.LibVariance

noncomputable section

open scoped BigOperators

namespace Cert.Bridge

open Idealize.ShloMosaic Idealize.ShloMosaic.ValueIdx Cert.Spec Cert.KTail Cert.KernelIdeal
  Cert.ReferenceIdeal.Read

variable (p t : (⟨2, ![10000, 5000]⟩ : Shape).Idx → EReal)

/-- The pattern of 1.0 is 1. -/
theorem ofBits_one : Ideal.ofBits .f32 0x3F800000#32 = ((1 : ℝ) : EReal) := by
  simp [Ideal.ofBits, Ideal.ieee, -EReal.coe_mul]; norm_num

/-- The pattern of 10.0 is 10. -/
theorem ofBits_ten : Ideal.ofBits .f32 0x41200000#32 = ((10 : ℝ) : EReal) := by
  simp [Ideal.ofBits, Ideal.ieee, -EReal.coe_mul]; norm_num

/-- The reference's operations from its validity mask on are the kernel program's. -/
theorem ref_eq_finish :
    val_main_v36 (F := Ideal) p t
      = finish (F := Ideal) (val_main_v24 (F := Ideal) t) (val_main_v16 (F := Ideal) t) (val_main_v19 (F := Ideal) p t) :=
  rfl

/-- The residual sums agree. -/
theorem res_eq (h : S2x1x5000.ReducesTo [0, 1] S5000) (hu : 0 < S_.numel) :
    Host.reduceAdd (F := Ideal) (φ := .f32) (half gRes p t) (constant (F := Ideal) S_ .f32 0x00000000#32) h hu
      = val_main_v19 (F := Ideal) p t := by
  funext i
  rw [Cert.KerCols.hostSum_half, Cert.RefCols.v19_apply]
  rfl

/-- The kernel's count exceeds ten, as the reference's does. -/
theorem gt_eq (h : S2x1x5000.ReducesTo [0, 1] S5000) (hu : 0 < S_.numel)
    (hb : S_.BroadcastsInDim S5000 (![] : Fin 0 → Fin S5000.rank)) :
    cmpf .ogt (Host.reduceAdd (F := Ideal) (φ := .f32) (half gCnt p t) (constant (F := Ideal) S_ .f32 0x00000000#32) h hu)
        (broadcastInDim S5000 ![] hb (constant (F := Ideal) S_ .f32 0x41200000#32))
      = val_main_v21 (F := Ideal) t := by
  funext i
  rw [Cert.RefCols.v21_apply]
  show Ideal.cmp .ogt (Host.reduceAdd (F := Ideal) (φ := .f32) (half gCnt p t) _ h hu i) (Ideal.ofBits .f32 0x41200000#32) = 1#1
  rw [Cert.KerCols.hostSum_cnt, ofBits_ten]
  have h10 : ((10 : ℝ) : EReal) < ((10000 : ℝ) : EReal) := by exact_mod_cast (by norm_num : (10 : ℝ) < 10000)
  simp [Ideal.cmp, h10]

/-- The sums of squares about the mean agree, the second array's elements being real. -/
theorem sst_eq (ht : ∀ i, ∃ r : ℝ, t i = (r : EReal)) (h : S2x1x5000.ReducesTo [0, 1] S5000) (hu : 0 < S_.numel)
    (hb : S_.BroadcastsInDim S5000 (![] : Fin 0 → Fin S5000.rank)) :
    subf (Host.reduceAdd (F := Ideal) (φ := .f32) (half gSq p t) (constant (F := Ideal) S_ .f32 0x00000000#32) h hu)
        (Host.divf
          (mulf (Host.reduceAdd (F := Ideal) (φ := .f32) (half gSum p t) (constant (F := Ideal) S_ .f32 0x00000000#32) h hu)
            (Host.reduceAdd (F := Ideal) (φ := .f32) (half gSum p t) (constant (F := Ideal) S_ .f32 0x00000000#32) h hu))
          (maximumf (Host.reduceAdd (F := Ideal) (φ := .f32) (half gCnt p t) (constant (F := Ideal) S_ .f32 0x00000000#32) h hu)
            (broadcastInDim S5000 ![] hb (constant (F := Ideal) S_ .f32 0x3F800000#32))))
      = val_main_v16 (F := Ideal) t := by
  funext i
  show Host.reduceAdd (F := Ideal) (φ := .f32) (half gSq p t) _ h hu i
      - Ideal.div (Host.reduceAdd (F := Ideal) (φ := .f32) (half gSum p t) _ h hu i
          * Host.reduceAdd (F := Ideal) (φ := .f32) (half gSum p t) _ h hu i)
        (max (Host.reduceAdd (F := Ideal) (φ := .f32) (half gCnt p t) _ h hu i) (Ideal.ofBits .f32 0x3F800000#32)) = _
  rw [Cert.KerCols.hostSum_half, Cert.KerCols.hostSum_half, Cert.KerCols.hostSum_cnt, ofBits_one,
    Cert.RefCols.v16_apply, Cert.RefCols.v10_apply]
  have hmax : max ((10000 : ℝ) : EReal) ((1 : ℝ) : EReal) = ((10000 : ℝ) : EReal) :=
    max_eq_left (by exact_mod_cast (by norm_num : (1 : ℝ) ≤ 10000))
  rw [hmax]
  choose τ hτ using ht
  simp only [gSq, gSum, hτ]
  exact Cert.Variance.sumsq_sub_eq (fun k : Fin 10000 => τ (ix2 k (i 0))) 10000 (by norm_num) (by simp)

/-- The kernel's host operations on the four statistics of the two arrays give the reference's result. -/
theorem bridge (p t : (⟨2, ![10000, 5000]⟩ : Shape).Idx → EReal) (hp : ∀ i, ∃ r : ℝ, p i = (r : EReal))
    (ht : ∀ i, ∃ r : ℝ, t i = (r : EReal)) :
    Cert.KTail.ktail (F := Ideal) (Cert.Spec.half Cert.Spec.gCnt p t) (Cert.Spec.half Cert.Spec.gSum p t)
        (Cert.Spec.half Cert.Spec.gSq p t) (Cert.Spec.half Cert.Spec.gRes p t)
      = Cert.ReferenceIdeal.Read.val_main_v36 (F := Ideal) p t := by
  rw [ref_eq_finish]
  unfold Cert.KTail.ktail
  dsimp only
  rw [res_eq, sst_eq p t ht, gt_eq]
  rfl

end Cert.Bridge

end
-- ==== Proof.Finite.lean ====
/-
  The precondition says that every element of both argument arrays is finite: `|x| < +inf` at every index of each,
  all of them together. Over the extended reals `|x|` is `max x (-x)` and the pattern `0x7F800000` is `⊤`; the
  maximum of `x` and `-x` is below `⊤` only when `x` is neither `⊤` nor `⊥`, that is, when `x` is a real number.
-/
import proofs.«171646_j7301444403971_1_alg».proof.Defs
import proofs.«171646_j7301444403971_1_alg».proof.Proof.Gen.Pre_finite_inputs
import Idealize.ShloMosaic.Lib.ReduceAll
import Idealize.ShloMosaic.Lib.ValueIdx

noncomputable section

namespace Cert.Finite

open Idealize.ShloMosaic Idealize.ShloMosaic.ValueIdx Idealize.SL.Sem

/-- The pattern of `+inf` is the top of the extended reals. -/
theorem ofBits_inf : Ideal.ofBits .f32 0x7F800000#32 = ⊤ := by simp [Ideal.ofBits, Ideal.ieee]

/-- An extended real whose absolute value is below `+inf` is a real number. -/
theorem real_of_abs_lt (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | top => simp [Ideal.cmp] at h
  | coe r => exact ⟨r, rfl⟩

instance : Subsingleton Cert.Pre_finite_inputs.S_.Idx := ⟨fun a b => funext fun d => d.elim0⟩

/-- The predicate, all ones, makes every element of both arrays a real number. -/
theorem real_of_fn (x y : FVec Ideal Cert.Pre_finite_inputs.S10000x5000 .f32)
    (h : Cert.Pre_finite_inputs.fn (F := Ideal) x y = fun _ => 1#1) :
    (∀ i, ∃ r : ℝ, x i = (r : EReal)) ∧ (∀ i, ∃ r : ℝ, y i = (r : EReal)) := by
  have h0 := congrFun h ix0
  dsimp only [Cert.Pre_finite_inputs.fn] at h0
  obtain ⟨hx, hy⟩ := IntOp.andi_eq_one.1 h0
  exact ⟨fun i => real_of_abs_lt (x i) (Host.reduce_andi_all _ _ _ _ _ hx i),
    fun i => real_of_abs_lt (y i) (Host.reduce_andi_all _ _ _ _ _ hy i)⟩

/-- Under the precondition both argument arrays of the kernel's program hold real numbers only. -/
theorem finite_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
      ∧ (∀ i, ∃ r : ℝ, m ((c.tc : Thread Cert.KernelIdeal.nD Cert.KernelIdeal.τ).loc Cert.KernelIdeal.main_arg1) i = (r : EReal)) :=
  real_of_fn _ _ (h c)

end Cert.Finite

end
-- ==== Proof.lean ====
/-
  The kernel computes a masked Nash–Sutcliffe-style loss of two f32[10000, 5000] arrays `pred` and `targ` in one pass:
  per column it accumulates the count of valid entries, the sum of `targ`, the sum of its squares and the sum of the
  squared differences `(targ - pred)^2`, over two halves of the rows in 25 blocks of 200 rows each, and on the host
  takes the sum of squares about the mean as `sumsq - sumt^2 / max cnt 1`. The reference computes the mean
  `sumt / max cnt 1` first and then sums the squared deviations from it. From the validity mask, that sum and the
  residual sum on, the two programs are the same operations.

  On the extended reals nothing is unordered, so both programs' masks of valid entries are all ones and every count is
  10000. The two sums of squares about the mean are then equal, for finite entries, by the law
  `∑ t² - (∑ t)² / n = ∑ (t - (∑ t) / n)²` over the reals; this is where the precondition (finite inputs) is used. The
  kernel's blockwise, two-half accumulation is the reference's single sum down the 10000 rows, because addition of
  extended reals is commutative and associative.

  The kernel's frames are the generated ones; the reference's frame is its generated run with the result dropped; the
  idealization rewrote nothing. The kernel's result is read off the generated frame run (the accumulators after each
  grid point by induction on the point, the arrays by the cover of their write-backs, the host operations after the
  launch applied to them), the reference's result is its generated run read one operation at a time, and the two
  are one value.
-/
import proofs.«171646_j7301444403971_1_alg».proof.Defs
import proofs.«171646_j7301444403971_1_alg».proof.Proof.Gen.Kernel
import proofs.«171646_j7301444403971_1_alg».proof.Proof.Gen.Kernel.Skeleton
import proofs.«171646_j7301444403971_1_alg».proof.Proof.Gen.Kernel.Launch
import proofs.«171646_j7301444403971_1_alg».proof.Proof.Gen.Kernel.Points
import proofs.«171646_j7301444403971_1_alg».proof.Proof.Gen.Kernel.Frame
import proofs.«171646_j7301444403971_1_alg».proof.Proof.Gen.KernelIdeal
import proofs.«171646_j7301444403971_1_alg».proof.Proof.Gen.KernelIdeal.Skeleton
import proofs.«171646_j7301444403971_1_alg».proof.Proof.Gen.KernelIdeal.Launch
import proofs.«171646_j7301444403971_1_alg».proof.Proof.Gen.KernelIdeal.Points
import proofs.«171646_j7301444403971_1_alg».proof.Proof.Gen.KernelIdeal.Frame
import proofs.«171646_j7301444403971_1_alg».proof.Proof.Gen.ReferenceIdeal
import proofs.«171646_j7301444403971_1_alg».proof.Proof.Gen.Pre_finite_inputs
import proofs.«171646_j7301444403971_1_alg».proof.Proof.Gen.ReferenceIdeal.Read
import proofs.«171646_j7301444403971_1_alg».proof.Proof.KRun
import proofs.«171646_j7301444403971_1_alg».proof.Proof.Bridge
import proofs.«171646_j7301444403971_1_alg».proof.Proof.Finite
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end; the kernel's result is the finishing computation of the four column statistics of its arguments,
    the reference's is its own composed term of arguments that agree with them; for finite arguments the two are
    equal. -/
theorem algebraic : Cert.algebraic_KernelIdeal_ReferenceIdeal := by
  intro m ρ m' ρ' hpre hagree
  refine ⟨_, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  obtain ⟨hp, ht⟩ := Cert.Finite.finite_of_pre m hpre c
  rw [Cert.ReferenceIdeal.Read.val_main_v36_eq, (hagree c).1, (hagree c).2]
  exact (Cert.Bridge.bridge _ _ hp ht).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
